-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x1 .f32) (main_arg8 : FVec F S1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x32 .f32) (main_arg1 : FVec F S32x128 .f32) (main_arg2 : FVec F S128 .f32) (main_arg3 : FVec F S128x128 .f32) (main_arg4 : FVec F S128 .f32) (main_arg5 : FVec F S128x128 .f32) (main_arg6 : FVec F S128 .f32) (main_arg7 : FVec F S128x1 .f32) (main_arg8 : FVec F S1 .f32) (main_arg9 : IVec S2x1600000 32) (main_arg10 : IVec S100000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S100000x32 : Shape := ⟨2, ![100000, 32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S5000x32 : Shape := ⟨2, ![5000, 32]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S2048x128 : Shape := ⟨2, ![2048, 128]⟩
abbrev S2048 : Shape := ⟨1, ![2048]⟩
abbrev S2048x1 : Shape := ⟨2, ![2048, 1]⟩
abbrev S1x1 : Shape := ⟨2, ![1, 1]⟩

abbrev nBuf : Space → Nat
  | .hbm => 123
  | .vmem => 42
  | .smem => 0
  | _ => 0

abbrev bufTy : (tb : Table) → Fin (tcTables nBuf tb) → BufTy
  | .hbm, ⟨0, _⟩ => ⟨S100000x32, .f32⟩
  | .hbm, ⟨1, _⟩ => ⟨S32x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S2x1600000, .i32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S1600000x1, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S1600000x1, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S1600000x128, .f32⟩
  | .hbm, ⟨96, _⟩ => ⟨S1600000x128, .f32⟩
  | .hbm, ⟨97, _⟩ => ⟨S_, .f32⟩
  | .hbm, ⟨98, _⟩ => ⟨S100000x128, .f32⟩
  | .hbm, ⟨99, _⟩ => ⟨S1600000x1, .i32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S_, .f32⟩
  | .hbm, ⟨104, _⟩ => ⟨S2048x128, .f32⟩
  | .hbm, ⟨105, _⟩ => ⟨S100000x1, .i32⟩
  | .hbm, ⟨106, _⟩ => ⟨S2048x128, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S2048, .f32⟩
  | .hbm, ⟨111, _⟩ => ⟨S100000x1, .i32⟩
  | .hbm, ⟨112, _⟩ => ⟨S2048, .f32⟩
  | .hbm, ⟨113, _⟩ => ⟨S_, .f32⟩
  | .hbm, ⟨114, _⟩ => ⟨S2048, .f32⟩
  | .hbm, ⟨115, _⟩ => ⟨S2048, .f32⟩
  | .hbm, ⟨116, _⟩ => ⟨S2048x1, .f32⟩
  | .hbm, ⟨117, _⟩ => ⟨S2048x128, .f32⟩
  | .hbm, ⟨118, _⟩ => ⟨S2048x128, .f32⟩
  | .hbm, ⟨119, _⟩ => ⟨S2048x1, .f32⟩
  | .hbm, ⟨120, _⟩ => ⟨S1x1, .f32⟩
  | .hbm, ⟨121, _⟩ => ⟨S2048x1, .f32⟩
  | .hbm, ⟨122, _⟩ => ⟨S2048x1, .f32⟩
  | .local _ .vmem, ⟨0, _⟩ => ⟨S5000x32, .f32⟩
  | .local _ .vmem, ⟨1, _⟩ => ⟨S5000x32, .f32⟩
  | .local _ .vmem, ⟨2, _⟩ => ⟨S32x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x32_S32x128_S5000x128_1_0_0_1_n_n_wf : DotDims.WF S5000x32 S32x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x32 : Shape := ⟨2, ![100000, 32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x32, .f32⟩
  | 1 => ⟨S32x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S2x1600000, .i32⟩
  | 10 => ⟨S100000, .i32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S100000, .f32⟩
  | 45 => ⟨S100000x128, .f32⟩
  | 46 => ⟨S1600000x1, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S1600000x128, .f32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S1600000x1, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x128, .f32⟩
  | 110 => ⟨S1600000x128, .f32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S2048x128, .f32⟩
  | 125 => ⟨S100000x1, .i32⟩
  | 126 => ⟨S2048x128, .f32⟩
  | 127 => ⟨S_, .f32⟩
  | _ => ⟨S100000x32, .f32⟩

abbrev hbmTy0_1 (i : Nat) : BufTy := match i % 128 with
  | 0 => ⟨S100000, .f32⟩
  | 1 => ⟨S_, .f32⟩
  | 2 => ⟨S2048, .f32⟩
  | 3 => ⟨S100000x1, .i32⟩
  | 4 => ⟨S2048, .f32⟩
  | 5 => ⟨S_, .f32⟩
  | 6 => ⟨S2048, .f32⟩
  | 7 => ⟨S2048, .f32⟩
  | 8 => ⟨S2048x1, .f32⟩
  | 9 => ⟨S2048x128, .f32⟩
  | 10 => ⟨S2048x128, .f32⟩
  | 11 => ⟨S2048x1, .f32⟩
  | 12 => ⟨S1x1, .f32⟩
  | 13 => ⟨S2048x1, .f32⟩
  | 14 => ⟨S2048x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_call1_cst : Ref sig .tc := ⟨.hbm, 96, rfl⟩
abbrev main_call1_v0 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_11 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_13 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_14 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_15 : Ref sig .tc := ⟨.hbm, 127, rfl⟩
abbrev main_v95 : Ref sig .tc := ⟨.hbm, 128, rfl⟩
abbrev main_cst_16 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_17 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S2048x128 : S_.BroadcastsInDim S2048x128 (![] : Fin 0 → Fin S2048x128.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x128_0_1 : S2048x1.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x32_S32x128_S100000x128_1_0_0_1_n_n_wf : DotDims.WF S100000x32 S32x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S2048x128_S100000x1_S100000x128_1_0_0_1_wf : ScatterDims.WF S2048x128 S100000x1 S100000x128 [1] [0] [0] 1
  scatter_S2048_S100000x1_S100000_n_0_0_1_wf : ScatterDims.WF S2048 S100000x1 S100000 [] [0] [0] 1
  dot_S2048x128_S128x1_S2048x1_1_0_0_1_n_n_wf : DotDims.WF S2048x128 S128x1 S2048x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.WholeRun.lean ====
/-
  The whole program's run, with every buffer named at the end.

  The program is eleven segments (five stretches of host operations, six tiled calls). Run from any memory with zero
  counters, every weakly fair execution terminates without a fault, and every buffer that is not scoped to a call ends
  holding the contents the fold over the segments computes for it: the launch contents pushed through each host
  stretch's operations and each call's write-backs in turn. The statement keeps all of those buffers; the result
  buffer and the eleven arguments are read off it afterwards.
-/
import proofs.«149272_j55353538511629_1_alg».proof.Proof.Gen.KernelIdeal.Frame

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run read at the result buffer and the eleven arguments: the result at the last boundary's contents,
    each argument as launched (no segment writes an argument). -/
theorem run_result : θ_run defs (onTc (τ := τ) (main (F := F))) ⟨m, fun _ => 0, ρ⟩ (fun r => ∀ c : Dev nD,
      r.2.mem ((c.tc : Thread nD τ).loc main_v91) = W11 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
    ⟨h c _ (mem_uc main_v91 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩)
    (run_all m ρ)

end Cert.KernelIdeal.Whole

end
-- ==== Proof.Persist.lean ====
/-
  What each stretch of the program leaves unchanged.

  The program is a chain of eleven segments: a stretch of host operations, a tiled call, a stretch, two calls, a
  stretch, two calls, a stretch, a call, and the last stretch. A stretch of host operations writes only its own
  result buffers; a tiled call writes back only its result array. So a buffer written early (the two index rows, the
  edge weights, the inverse degrees, an argument) is still there, unchanged, at every later boundary. Each lemma
  below says this for one segment and any buffer outside the segment's written list; membership in such a list of
  literal references is decided.
-/
import proofs.«149272_j55353538511629_1_alg».proof.Proof.Gen.KernelIdeal.Frame

noncomputable section

namespace Cert.KernelIdeal.Persist

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The host stretches -/

/-- The buffers the first stretch (indices, degrees, edge weights) writes. -/
abbrev host0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27]
theorem host0_writes : (hostOps0 : List (HloOp τ sig (Elt F))).Forall fun op => op.writes ⊆ (host0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list holds after the stretch what it held before it. -/
theorem W1_of (c : Dev nD) (r : Ref sig .tc) (h : r ∉ host0_W) :
    W1 m ρ c (Proc.devRef .tc r) = W0 m ρ c (Proc.devRef .tc r) :=
  StableHlo.after_of_writes_sub hostOps0 _ host0_writes h

/-- The buffers the stretch before the first layer's combine writes. -/
abbrev host1_W : List (Ref sig .tc) := [main_v29, main_c_5, main_v30, main_v31, main_c_6, main_v32, main_v33, main_v34, main_v35, main_v36, main_v37, main_v38, main_cst_7, main_v39, main_v40, main_v41, main_v42]
theorem host1_writes : (hostOps1 : List (HloOp τ sig (Elt F))).Forall fun op => op.writes ⊆ (host1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list holds after the stretch what it held before it. -/
theorem W3_of (c : Dev nD) (r : Ref sig .tc) (h : r ∉ host1_W) :
    W3 m ρ c (Proc.devRef .tc r) = W2 m ρ c (Proc.devRef .tc r) :=
  StableHlo.after_of_writes_sub hostOps1 _ host1_writes h

/-- The buffers the stretch before the second layer's combine writes. -/
abbrev host3_W : List (Ref sig .tc) := [main_v45, main_c_8, main_v46, main_v47, main_c_9, main_v48, main_v49, main_v50, main_v51, main_v52, main_v53, main_v54, main_cst_10, main_v55, main_v56, main_v57, main_v58]
theorem host3_writes : (hostOps3 : List (HloOp τ sig (Elt F))).Forall fun op => op.writes ⊆ (host3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list holds after the stretch what it held before it. -/
theorem W6_of (c : Dev nD) (r : Ref sig .tc) (h : r ∉ host3_W) :
    W6 m ρ c (Proc.devRef .tc r) = W5 m ρ c (Proc.devRef .tc r) :=
  StableHlo.after_of_writes_sub hostOps3 _ host3_writes h

/-- The buffers the stretch before the third layer's combine writes. -/
abbrev host5_W : List (Ref sig .tc) := [main_v61, main_c_11, main_v62, main_v63, main_c_12, main_v64, main_v65, main_v66, main_v67, main_v68, main_v69, main_v70, main_cst_13, main_v71, main_v72, main_v73, main_v74]
theorem host5_writes : (hostOps5 : List (HloOp τ sig (Elt F))).Forall fun op => op.writes ⊆ (host5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list holds after the stretch what it held before it. -/
theorem W9_of (c : Dev nD) (r : Ref sig .tc) (h : r ∉ host5_W) :
    W9 m ρ c (Proc.devRef .tc r) = W8 m ρ c (Proc.devRef .tc r) :=
  StableHlo.after_of_writes_sub hostOps5 _ host5_writes h

/-- The buffers the last stretch (pooling and the output layer) writes. -/
abbrev host6_W : List (Ref sig .tc) := [main_cst_14, main_v76, main_v77, main_v78, main_cst_15, main_v79, main_cst_16, main_v80, main_v81, main_v82, main_cst_17, main_v83, main_v84, main_v85, main_v86, main_v87, main_v88, main_v89, main_v90, main_v91]
theorem host6_writes : (hostOps6 : List (HloOp τ sig (Elt F))).Forall fun op => op.writes ⊆ (host6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer outside that list holds after the stretch what it held before it. -/
theorem W11_of (c : Dev nD) (r : Ref sig .tc) (h : r ∉ host6_W) :
    W11 m ρ c (Proc.devRef .tc r) = W10 m ρ c (Proc.devRef .tc r) :=
  StableHlo.after_of_writes_sub hostOps6 _ host6_writes h

/-! ## The tiled calls -/

/-- Call 0 writes back only its result array `main_v28`: an operand array is staged and never written back, and
    every other buffer is outside the call's windows. -/
theorem W2_of (c : Dev nD) (r : Ref sig .tc) (h : r ∉ ([main_v28] : List (Ref sig .tc))) :
    W2 m ρ c (Proc.devRef .tc r) = W1 m ρ c (Proc.devRef .tc r) := by
  by_cases h0 : r = main_arg0
  · subst h0
    exact (W2_arr m ρ c 0).trans (((dat0 (V1 m ρ) c).arrAt_in 0 rfl _).trans (A_eq0 (V1 m ρ) c 0))
  by_cases h1 : r = main_arg1
  · subst h1
    exact (W2_arr m ρ c 1).trans (((dat0 (V1 m ρ) c).arrAt_in 1 rfl _).trans (A_eq0 (V1 m ρ) c 1))
  refine W2_of_ne m ρ c r fun w e => ?_
  match w with
    | ⟨0, _⟩ => exact h0 e.symm
    | ⟨1, _⟩ => exact h1 e.symm
    | ⟨2, _⟩ => exact h (List.mem_singleton.mpr e.symm)

/-- Call 1 writes back only its result array `main_v43`: an operand array is staged and never written back, and
    every other buffer is outside the call's windows. -/
theorem W4_of (c : Dev nD) (r : Ref sig .tc) (h : r ∉ ([main_v43] : List (Ref sig .tc))) :
    W4 m ρ c (Proc.devRef .tc r) = W3 m ρ c (Proc.devRef .tc r) := by
  by_cases h0 : r = main_v41
  · subst h0
    exact (W4_arr m ρ c 0).trans (((dat1 (V3 m ρ) c).arrAt_in 0 rfl _).trans (A_eq1 (V3 m ρ) c 0))
  by_cases h1 : r = main_v28
  · subst h1
    exact (W4_arr m ρ c 1).trans (((dat1 (V3 m ρ) c).arrAt_in 1 rfl _).trans (A_eq1 (V3 m ρ) c 1))
  by_cases h2 : r = main_v27
  · subst h2
    exact (W4_arr m ρ c 2).trans (((dat1 (V3 m ρ) c).arrAt_in 2 rfl _).trans (A_eq1 (V3 m ρ) c 2))
  by_cases h3 : r = main_v42
  · subst h3
    exact (W4_arr m ρ c 3).trans (((dat1 (V3 m ρ) c).arrAt_in 3 rfl _).trans (A_eq1 (V3 m ρ) c 3))
  refine W4_of_ne m ρ c r fun w e => ?_
  match w with
    | ⟨0, _⟩ => exact h0 e.symm
    | ⟨1, _⟩ => exact h1 e.symm
    | ⟨2, _⟩ => exact h2 e.symm
    | ⟨3, _⟩ => exact h3 e.symm
    | ⟨4, _⟩ => exact h (List.mem_singleton.mpr e.symm)

/-- Call 2 writes back only its result array `main_v44`: an operand array is staged and never written back, and
    every other buffer is outside the call's windows. -/
theorem W5_of (c : Dev nD) (r : Ref sig .tc) (h : r ∉ ([main_v44] : List (Ref sig .tc))) :
    W5 m ρ c (Proc.devRef .tc r) = W4 m ρ c (Proc.devRef .tc r) := by
  by_cases h0 : r = main_v43
  · subst h0
    exact (W5_arr m ρ c 0).trans (((dat2 (V4 m ρ) c).arrAt_in 0 rfl _).trans (A_eq2 (V4 m ρ) c 0))
  by_cases h1 : r = main_arg3
  · subst h1
    exact (W5_arr m ρ c 1).trans (((dat2 (V4 m ρ) c).arrAt_in 1 rfl _).trans (A_eq2 (V4 m ρ) c 1))
  refine W5_of_ne m ρ c r fun w e => ?_
  match w with
    | ⟨0, _⟩ => exact h0 e.symm
    | ⟨1, _⟩ => exact h1 e.symm
    | ⟨2, _⟩ => exact h (List.mem_singleton.mpr e.symm)

/-- Call 3 writes back only its result array `main_v59`: an operand array is staged and never written back, and
    every other buffer is outside the call's windows. -/
theorem W7_of (c : Dev nD) (r : Ref sig .tc) (h : r ∉ ([main_v59] : List (Ref sig .tc))) :
    W7 m ρ c (Proc.devRef .tc r) = W6 m ρ c (Proc.devRef .tc r) := by
  by_cases h0 : r = main_v57
  · subst h0
    exact (W7_arr m ρ c 0).trans (((dat3 (V6 m ρ) c).arrAt_in 0 rfl _).trans (A_eq3 (V6 m ρ) c 0))
  by_cases h1 : r = main_v44
  · subst h1
    exact (W7_arr m ρ c 1).trans (((dat3 (V6 m ρ) c).arrAt_in 1 rfl _).trans (A_eq3 (V6 m ρ) c 1))
  by_cases h2 : r = main_v27
  · subst h2
    exact (W7_arr m ρ c 2).trans (((dat3 (V6 m ρ) c).arrAt_in 2 rfl _).trans (A_eq3 (V6 m ρ) c 2))
  by_cases h3 : r = main_v58
  · subst h3
    exact (W7_arr m ρ c 3).trans (((dat3 (V6 m ρ) c).arrAt_in 3 rfl _).trans (A_eq3 (V6 m ρ) c 3))
  refine W7_of_ne m ρ c r fun w e => ?_
  match w with
    | ⟨0, _⟩ => exact h0 e.symm
    | ⟨1, _⟩ => exact h1 e.symm
    | ⟨2, _⟩ => exact h2 e.symm
    | ⟨3, _⟩ => exact h3 e.symm
    | ⟨4, _⟩ => exact h (List.mem_singleton.mpr e.symm)

/-- Call 4 writes back only its result array `main_v60`: an operand array is staged and never written back, and
    every other buffer is outside the call's windows. -/
theorem W8_of (c : Dev nD) (r : Ref sig .tc) (h : r ∉ ([main_v60] : List (Ref sig .tc))) :
    W8 m ρ c (Proc.devRef .tc r) = W7 m ρ c (Proc.devRef .tc r) := by
  by_cases h0 : r = main_v59
  · subst h0
    exact (W8_arr m ρ c 0).trans (((dat4 (V7 m ρ) c).arrAt_in 0 rfl _).trans (A_eq4 (V7 m ρ) c 0))
  by_cases h1 : r = main_arg5
  · subst h1
    exact (W8_arr m ρ c 1).trans (((dat4 (V7 m ρ) c).arrAt_in 1 rfl _).trans (A_eq4 (V7 m ρ) c 1))
  refine W8_of_ne m ρ c r fun w e => ?_
  match w with
    | ⟨0, _⟩ => exact h0 e.symm
    | ⟨1, _⟩ => exact h1 e.symm
    | ⟨2, _⟩ => exact h (List.mem_singleton.mpr e.symm)

/-- Call 5 writes back only its result array `main_v75`: an operand array is staged and never written back, and
    every other buffer is outside the call's windows. -/
theorem W10_of (c : Dev nD) (r : Ref sig .tc) (h : r ∉ ([main_v75] : List (Ref sig .tc))) :
    W10 m ρ c (Proc.devRef .tc r) = W9 m ρ c (Proc.devRef .tc r) := by
  by_cases h0 : r = main_v73
  · subst h0
    exact (W10_arr m ρ c 0).trans (((dat5 (V9 m ρ) c).arrAt_in 0 rfl _).trans (A_eq5 (V9 m ρ) c 0))
  by_cases h1 : r = main_v60
  · subst h1
    exact (W10_arr m ρ c 1).trans (((dat5 (V9 m ρ) c).arrAt_in 1 rfl _).trans (A_eq5 (V9 m ρ) c 1))
  by_cases h2 : r = main_v27
  · subst h2
    exact (W10_arr m ρ c 2).trans (((dat5 (V9 m ρ) c).arrAt_in 2 rfl _).trans (A_eq5 (V9 m ρ) c 2))
  by_cases h3 : r = main_v74
  · subst h3
    exact (W10_arr m ρ c 3).trans (((dat5 (V9 m ρ) c).arrAt_in 3 rfl _).trans (A_eq5 (V9 m ρ) c 3))
  refine W10_of_ne m ρ c r fun w e => ?_
  match w with
    | ⟨0, _⟩ => exact h0 e.symm
    | ⟨1, _⟩ => exact h1 e.symm
    | ⟨2, _⟩ => exact h2 e.symm
    | ⟨3, _⟩ => exact h3 e.symm
    | ⟨4, _⟩ => exact h (List.mem_singleton.mpr e.symm)

end Cert.KernelIdeal.Persist

end
-- ==== Proof.LibPlainDot.lean ====
/-
  A plain matrix product on the extended reals, read at an entry.

  For dimension numbers that contract the left operand's second axis with the right operand's first and have no
  batch axis, the product of an [M, K] and a [K, N] matrix into the zero accumulator has, at row r and column c,
  the entry  sum over k < K of  lhs (r, k) * rhs (k, c).  The contraction position of the dimension numbers is a
  one-coordinate index; the sum over it is re-indexed through the bijection with that coordinate.  The two facts
  about the non-contracted coordinates (the left index keeps the row, the right index keeps the column) depend on
  the particular dimension numbers and are taken as hypotheses: for literal dimension numbers each is decided by
  unfolding the index map once.
-/
import Idealize.ShloMosaic.Lib.ValueIdx
import Idealize.ShloMosaic.PureOps.Ideal.Laws

noncomputable section

namespace Cert.LibPlainDot

open Idealize.ShloMosaic Idealize.ShloMosaic.ValueIdx

variable {M K N : ℕ} {φ₁ φ₂ : FTy}

/-- The sum over the one-coordinate contraction position is the sum over that coordinate, with the operands read at
    (row, k) and (k, column). -/
theorem contr_sum_ix2 (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (lhs : FVec Ideal ⟨2, ![M, K]⟩ φ₁) (rhs : FVec Ideal ⟨2, ![K, N]⟩ φ₂) (r : Fin M) (c : Fin N) :
    (∑ q : d.contr.Idx, lhs (d.lhsIdx (ix2 r c) q) * rhs (d.rhsIdx (ix2 r c) q))
      = ∑ k : Fin K, lhs (ix2 r k) * rhs (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (d.lhsIdx_val_of_single hlc _ _).trans hk)
  have er : d.rhsIdx (ix2 r c) ((contrEquiv1 d K hr hs).symm k) = ix2 k c := funext fun a => Fin.ext (by
    match a with
    | ⟨0, _⟩ => exact (d.rhsIdx_val_of_single hrc _ _).trans hk
    | ⟨1, _⟩ => exact hr1 _ _)
  rw [el, er]

/-- A matrix product into the zero accumulator, at (r, c), is the sum over k of lhs (r, k) * rhs (k, c). -/
theorem matmul_zero_ix2 (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) :=
  (Ideal.matmul_constant_zero_apply d prec lhs rhs (ix2 r c)).trans
    (contr_sum_ix2 d hr hs hlc hrc hl0 hr1 lhs rhs r c)

end Cert.LibPlainDot

end
-- ==== Proof.MatmulPayload.lean ====
/-
  The bodies of the three matmul calls, read at an entry of the block.

  A matmul call multiplies a block of 5000 rows by the whole weight matrix into a zero accumulator; the narrowing
  of both operands to bf16 before the product is the identity on the extended reals. So at row p and column q of the
  block the body's value is the sum over k of  x (p, k) * w (k, q),  with 32 terms in the first layer and 128 in the
  other two.
-/
import proofs.«149272_j55353538511629_1_alg».proof.Proof.Gen.KernelIdeal.Skeleton
import proofs.«149272_j55353538511629_1_alg».proof.Proof.LibPlainDot
import Idealize.ShloMosaic.Lib.Pipeline.Value
import Idealize.ShloMosaic.Lib.ValueIdx
import Idealize.ShloMosaic.PureOps.Ideal.Laws

noncomputable section

namespace Cert.KernelIdeal.MatmulPayload

open Cert.KernelIdeal Cert.KernelIdeal.Gen Idealize.ShloMosaic Idealize.ShloMosaic.ValueIdx

/-! ## The two non-contracted coordinates of each block product's dimension numbers -/

theorem lhs_row_32 (j : S5000x128.Idx) (q : dot_S5000x32_S32x128_S5000x128_1_0_0_1_n_n.contr.Idx) :
    (dot_S5000x32_S32x128_S5000x128_1_0_0_1_n_n.lhsIdx j q (0 : Fin 2)).val = (j (0 : Fin 2)).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl
theorem rhs_col_32 (j : S5000x128.Idx) (q : dot_S5000x32_S32x128_S5000x128_1_0_0_1_n_n.contr.Idx) :
    (dot_S5000x32_S32x128_S5000x128_1_0_0_1_n_n.rhsIdx j q (1 : Fin 2)).val = (j (1 : Fin 2)).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

theorem lhs_row_128 (j : S5000x128.Idx) (q : dot_S5000x128_S128x128_S5000x128_1_0_0_1_n_n.contr.Idx) :
    (dot_S5000x128_S128x128_S5000x128_1_0_0_1_n_n.lhsIdx j q (0 : Fin 2)).val = (j (0 : Fin 2)).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem rhs_col_128 (j : S5000x128.Idx) (q : dot_S5000x128_S128x128_S5000x128_1_0_0_1_n_n.contr.Idx) :
    (dot_S5000x128_S128x128_S5000x128_1_0_0_1_n_n.rhsIdx j q (1 : Fin 2)).val = (j (1 : Fin 2)).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The operand entries a block entry reads -/

/-- Entry (row of y, k) of a 5000-by-32 block. -/
abbrev lrow32 (y : S5000x128.Idx) (k : Fin 32) : S5000x32.Idx := fun a => match a with
  | ⟨0, _⟩ => ⟨(y 0).val, (y 0).isLt⟩
  | ⟨1, _⟩ => ⟨k.val, k.isLt⟩
/-- Entry (k, column of y) of the 32-by-128 weight matrix. -/
abbrev rcol32 (y : S5000x128.Idx) (k : Fin 32) : S32x128.Idx := fun a => match a with
  | ⟨0, _⟩ => ⟨k.val, k.isLt⟩
  | ⟨1, _⟩ => ⟨(y 1).val, (y 1).isLt⟩
/-- Entry (row of y, k) of a 5000-by-128 block. -/
abbrev lrow128 (y : S5000x128.Idx) (k : Fin 128) : S5000x128.Idx := fun a => match a with
  | ⟨0, _⟩ => ⟨(y 0).val, (y 0).isLt⟩
  | ⟨1, _⟩ => ⟨k.val, k.isLt⟩
/-- Entry (k, column of y) of a 128-by-128 weight matrix. -/
abbrev rcol128 (y : S5000x128.Idx) (k : Fin 128) : S128x128.Idx := fun a => match a with
  | ⟨0, _⟩ => ⟨k.val, k.isLt⟩
  | ⟨1, _⟩ => ⟨(y 1).val, (y 1).isLt⟩

theorem lrow32_eq (y : S5000x128.Idx) (k : Fin 32) : lrow32 y k = ix2 (y 0) k :=
  funext fun a => by match a with | ⟨0, _⟩ => rfl | ⟨1, _⟩ => rfl
theorem rcol32_eq (y : S5000x128.Idx) (k : Fin 32) : rcol32 y k = ix2 k (y 1) :=
  funext fun a => by match a with | ⟨0, _⟩ => rfl | ⟨1, _⟩ => rfl
theorem lrow128_eq (y : S5000x128.Idx) (k : Fin 128) : lrow128 y k = ix2 (y 0) k :=
  funext fun a => by match a with | ⟨0, _⟩ => rfl | ⟨1, _⟩ => rfl
theorem rcol128_eq (y : S5000x128.Idx) (k : Fin 128) : rcol128 y k = ix2 k (y 1) :=
  funext fun a => by match a with | ⟨0, _⟩ => rfl | ⟨1, _⟩ => rfl

/-! ## The bodies -/

/-- The first layer's block product, at an entry of the block. -/
theorem pay0_apply (x : Vec Ideal S5000x32 .f32) (w : Vec Ideal S32x128 .f32) (y : S5000x128.Idx) :
    k0_pay1 (F := Ideal) x w y = ∑ k : Fin 32, x (lrow32 y k) * w (rcol32 y k) := by
  unfold k0_pay1
  simp only [lrow32_eq, rcol32_eq]
  conv_lhs => rw [eq_ix2 y]
  exact Cert.LibPlainDot.matmul_zero_ix2 dot_S5000x32_S32x128_S5000x128_1_0_0_1_n_n rfl rfl rfl rfl lhs_row_32 rhs_col_32 none
    (truncf .bf16 x bitsLt_bf16_f32) (truncf .bf16 w bitsLt_bf16_f32) (y 0) (y 1)

/-- The second layer's block product, at an entry of the block. -/
theorem pay2_apply (x : Vec Ideal S5000x128 .f32) (w : Vec Ideal S128x128 .f32) (y : S5000x128.Idx) :
    k2_pay1 (F := Ideal) x w y = ∑ k : Fin 128, x (lrow128 y k) * w (rcol128 y k) := by
  unfold k2_pay1
  simp only [lrow128_eq, rcol128_eq, shapeCast_self]
  conv_lhs => rw [eq_ix2 y]
  exact Cert.LibPlainDot.matmul_zero_ix2 dot_S5000x128_S128x128_S5000x128_1_0_0_1_n_n rfl rfl rfl rfl lhs_row_128 rhs_col_128 none
    (truncf .bf16 x bitsLt_bf16_f32) (truncf .bf16 w bitsLt_bf16_f32) (y 0) (y 1)

/-- The third layer's block product, at an entry of the block. -/
theorem pay4_apply (x : Vec Ideal S5000x128 .f32) (w : Vec Ideal S128x128 .f32) (y : S5000x128.Idx) :
    k4_pay1 (F := Ideal) x w y = ∑ k : Fin 128, x (lrow128 y k) * w (rcol128 y k) := by
  unfold k4_pay1
  simp only [lrow128_eq, rcol128_eq, shapeCast_self]
  conv_lhs => rw [eq_ix2 y]
  exact Cert.LibPlainDot.matmul_zero_ix2 dot_S5000x128_S128x128_S5000x128_1_0_0_1_n_n rfl rfl rfl rfl lhs_row_128 rhs_col_128 none
    (truncf .bf16 x bitsLt_bf16_f32) (truncf .bf16 w bitsLt_bf16_f32) (y 0) (y 1)

end Cert.KernelIdeal.MatmulPayload

end
-- ==== Proof.MatmulSpec.lean ====
/-
  What a matmul call leaves in its result array: the product of its row operand with the weight matrix,

      entry (r, q)  =  sum over k of  x (r, k) * w (k, q),

  with 32 terms in the first layer (x is 100000 by 32) and 128 in the other two (x is 100000 by 128).
-/
import proofs.«149272_j55353538511629_1_alg».proof.KernelIdeal
import Idealize.ShloMosaic.PureOps.Ideal

noncomputable section

namespace Cert.KernelIdeal.MatmulSpec

open Cert.KernelIdeal Idealize.ShloMosaic

/-- Entry (row of i, k) of the 100000-by-32 features. -/
abbrev xrow32 (i : S100000x128.Idx) (k : Fin 32) : S100000x32.Idx := fun a => match a with
  | ⟨0, _⟩ => ⟨(i 0).val, (i 0).isLt⟩
  | ⟨1, _⟩ => ⟨k.val, k.isLt⟩
/-- Entry (k, column of i) of the 32-by-128 weights. -/
abbrev wcol32 (i : S100000x128.Idx) (k : Fin 32) : S32x128.Idx := fun a => match a with
  | ⟨0, _⟩ => ⟨k.val, k.isLt⟩
  | ⟨1, _⟩ => ⟨(i 1).val, (i 1).isLt⟩
/-- Entry (row of i, k) of a 100000-by-128 layer input. -/
abbrev xrow128 (i : S100000x128.Idx) (k : Fin 128) : S100000x128.Idx := fun a => match a with
  | ⟨0, _⟩ => ⟨(i 0).val, (i 0).isLt⟩
  | ⟨1, _⟩ => ⟨k.val, k.isLt⟩
/-- Entry (k, column of i) of 128-by-128 weights. -/
abbrev wcol128 (i : S100000x128.Idx) (k : Fin 128) : S128x128.Idx := fun a => match a with
  | ⟨0, _⟩ => ⟨k.val, k.isLt⟩
  | ⟨1, _⟩ => ⟨(i 1).val, (i 1).isLt⟩

/-- The first layer's product. -/
def prod32 (x : FVec Ideal S100000x32 .f32) (w : FVec Ideal S32x128 .f32) : FVec Ideal S100000x128 .f32 :=
  fun i => ∑ k : Fin 32, x (xrow32 i k) * w (wcol32 i k)

/-- The second and third layers' product. -/
def prod128 (x : FVec Ideal S100000x128 .f32) (w : FVec Ideal S128x128 .f32) : FVec Ideal S100000x128 .f32 :=
  fun i => ∑ k : Fin 128, x (xrow128 i k) * w (wcol128 i k)

end Cert.KernelIdeal.MatmulSpec

end
-- ==== Proof.Matmul0.lean ====
/-
  The first layer's matmul call, from its blocks to its whole result array.

  The call runs over 20 grid points; point t multiplies rows 5000 t .. 5000 t + 4999 of its row operand by the whole
  weight matrix, which sits in its one block at every point. Row p of block t is row 5000 t + p of the operand, so
  what point t writes back is block t of the product of the two operand arrays as the call finds them, and since
  the 20 blocks tile the 100000 rows the result array ends holding that product.
-/
import proofs.«149272_j55353538511629_1_alg».proof.Proof.Gen.KernelIdeal.Frame
import proofs.«149272_j55353538511629_1_alg».proof.Proof.MatmulPayload
import proofs.«149272_j55353538511629_1_alg».proof.Proof.MatmulSpec
import Idealize.ShloMosaic.Lib.Pipeline.Value

noncomputable section

namespace Cert.KernelIdeal.Matmul0

open Cert.KernelIdeal Cert.KernelIdeal.Gen Idealize.ShloMosaic Idealize.ShloMosaic.TcCoe Idealize.SL.Sem
open Cert.KernelIdeal.MatmulPayload Cert.KernelIdeal.MatmulSpec
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- Where each window's block sits at grid point t: block row t for the row operand and the result, the one
    block for the weights (decided over the 20 points). -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the operand arrays. -/
theorem written_block (c : Dev nD) (t : Fin cfg0.N) :
    (dat0 V c).flushed 2 t
      = ((cfg0.win 2).blk t).view.read (Elt Ideal) (prod32 (V c main_arg0) (V c main_arg1)) := by
  show (cfg0.win 2).cut (grid0.coords t) ((dat0 V c).after 2 t) = _
  rw [after0_2]
  unfold out0_2
  rw [View.canon_unit_zero zero_offset]
  simp only [View.ld_unit_zero (S := S5000x32) zero_offset, View.ld_unit_zero (S := S32x128) zero_offset]
  obtain ⟨e00, e01, e10, e11, e20, e21⟩ := block_positions t
  funext j
  refine (pay0_apply (iblk0 V c 0 t) (iblk0 V c 1 t) j).trans ?_
  show (∑ k : Fin 32, (id (V c main_arg0) : FVec Ideal S100000x32 .f32) (((cfg0.win 0).blk t).view.emb (lrow32 j k)) * (id (V c main_arg1) : FVec Ideal S32x128 .f32) (((cfg0.win 1).blk t).view.emb (rcol32 j k)))
     = ∑ k : Fin 32, (id (V c main_arg0) : FVec Ideal S100000x32 .f32) (xrow32 (((cfg0.win 2).blk t).view.emb j) k) * (id (V c main_arg1) : FVec Ideal S32x128 .f32) (wcol32 (((cfg0.win 2).blk t).view.emb j) k)
  refine Finset.sum_congr rfl fun k _ => ?_
  have hj0 : (j 0).val < 5000 := (j 0).isLt
  have hj1 : (j 1).val < 128 := (j 1).isLt
  have hk : k.val < 32 := k.isLt
  have hl : ((cfg0.win 0).blk t).view.emb (lrow32 j k) = xrow32 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 32 + 1 * k.val = k.val; omega
  have hr : ((cfg0.win 1).blk t).view.emb (rcol32 j k) = wcol32 (((cfg0.win 2).blk t).view.emb j) k := by
    funext a; apply Fin.ext
    match a with
    | ⟨0, _⟩ => show win0_1.index t (0 : Fin 2) * 32 + 1 * k.val = k.val; omega
    | ⟨1, _⟩ => show win0_1.index t (1 : Fin 2) * 128 + 1 * (j 1).val = win0_2.index t (1 : Fin 2) * 128 + 1 * (j 1).val; omega
  rw [hl, hr]

/-- An entry of the result array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every entry of the result array is in some point's block: row r is in block r / 5000. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by omega⟩, flush0_2 _, ?_⟩
  obtain ⟨-, -, -, -, e20, e21⟩ := block_positions ⟨(i 0).val / 5000, by omega⟩
  rw [mem_block]
  intro a
  match a with
  | ⟨0, _⟩ => show win0_2.index _ (0 : Fin 2) * 5000 ≤ (i 0).val ∧ (i 0).val < win0_2.index _ (0 : Fin 2) * 5000 + 5000; rw [e20]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e21]; omega

/-- The result array after the call: the product of the two operand arrays as the call finds them. -/
theorem result_array (c : Dev nD) :
    (dat0 V c).arrAt 2 cfg0.N = prod32 (V c main_arg0) (V c main_arg1) :=
  (dat0 V c).arrAt_eq_of_cover 2 _ (fun t _ => written_block V c t) blocks_cover

end Cert.KernelIdeal.Matmul0

end
-- ==== Proof.Matmul2.lean ====
/-
  The second layer's matmul call, from its blocks to its whole result array.

  The call runs over 20 grid points; point t multiplies rows 5000 t .. 5000 t + 4999 of its row operand by the whole
  weight matrix, which sits in its one block at every point. Row p of block t is row 5000 t + p of the operand, so
  what point t writes back is block t of the product of the two operand arrays as the call finds them, and since
  the 20 blocks tile the 100000 rows the result array ends holding that product.
-/
import proofs.«149272_j55353538511629_1_alg».proof.Proof.Gen.KernelIdeal.Frame
import proofs.«149272_j55353538511629_1_alg».proof.Proof.MatmulPayload
import proofs.«149272_j55353538511629_1_alg».proof.Proof.MatmulSpec
import Idealize.ShloMosaic.Lib.Pipeline.Value

noncomputable section

namespace Cert.KernelIdeal.Matmul2

open Cert.KernelIdeal Cert.KernelIdeal.Gen Idealize.ShloMosaic Idealize.ShloMosaic.TcCoe Idealize.SL.Sem
open Cert.KernelIdeal.MatmulPayload Cert.KernelIdeal.MatmulSpec
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- Where each window's block sits at grid point t: block row t for the row operand and the result, the one
    block for the weights (decided over the 20 points). -/
theorem block_positions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the operand arrays. -/
theorem written_block (c : Dev nD) (t : Fin cfg2.N) :
    (dat2 V c).flushed 2 t
      = ((cfg2.win 2).blk t).view.read (Elt Ideal) (prod128 (V c main_v43) (V c main_arg3)) := by
  show (cfg2.win 2).cut (grid2.coords t) ((dat2 V c).after 2 t) = _
  rw [after2_2]
  unfold out2_2
  rw [View.canon_unit_zero zero_offset]
  simp only [View.ld_unit_zero (S := S5000x128) zero_offset, View.ld_unit_zero (S := S128x128) zero_offset]
  obtain ⟨e00, e01, e10, e11, e20, e21⟩ := block_positions t
  funext j
  refine (pay2_apply (iblk2 V c 0 t) (iblk2 V c 1 t) j).trans ?_
  show (∑ k : Fin 128, (id (V c main_v43) : FVec Ideal S100000x128 .f32) (((cfg2.win 0).blk t).view.emb (lrow128 j k)) * (id (V c main_arg3) : FVec Ideal S128x128 .f32) (((cfg2.win 1).blk t).view.emb (rcol128 j k)))
     = ∑ k : Fin 128, (id (V c main_v43) : FVec Ideal S100000x128 .f32) (xrow128 (((cfg2.win 2).blk t).view.emb j) k) * (id (V c main_arg3) : FVec Ideal S128x128 .f32) (wcol128 (((cfg2.win 2).blk t).view.emb j) k)
  refine Finset.sum_congr rfl fun k _ => ?_
  have hj0 : (j 0).val < 5000 := (j 0).isLt
  have hj1 : (j 1).val < 128 := (j 1).isLt
  have hk : k.val < 128 := k.isLt
  have hl : ((cfg2.win 0).blk t).view.emb (lrow128 j k) = xrow128 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hr : ((cfg2.win 1).blk t).view.emb (rcol128 j k) = wcol128 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hl, hr]

/-- An entry of the result array is in point t's block iff each coordinate is in the block's range on its axis. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Every entry of the result array is in some point's block: row r is in block r / 5000. -/
theorem blocks_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by omega⟩, flush2_2 _, ?_⟩
  obtain ⟨-, -, -, -, e20, e21⟩ := block_positions ⟨(i 0).val / 5000, by omega⟩
  rw [mem_block]
  intro a
  match a with
  | ⟨0, _⟩ => show win2_2.index _ (0 : Fin 2) * 5000 ≤ (i 0).val ∧ (i 0).val < win2_2.index _ (0 : Fin 2) * 5000 + 5000; rw [e20]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e21]; omega

/-- The result array after the call: the product of the two operand arrays as the call finds them. -/
theorem result_array (c : Dev nD) :
    (dat2 V c).arrAt 2 cfg2.N = prod128 (V c main_v43) (V c main_arg3) :=
  (dat2 V c).arrAt_eq_of_cover 2 _ (fun t _ => written_block V c t) blocks_cover

end Cert.KernelIdeal.Matmul2

end
-- ==== Proof.Matmul4.lean ====
/-
  The third layer's matmul call, from its blocks to its whole result array.

  The call runs over 20 grid points; point t multiplies rows 5000 t .. 5000 t + 4999 of its row operand by the whole
  weight matrix, which sits in its one block at every point. Row p of block t is row 5000 t + p of the operand, so
  what point t writes back is block t of the product of the two operand arrays as the call finds them, and since
  the 20 blocks tile the 100000 rows the result array ends holding that product.
-/
import proofs.«149272_j55353538511629_1_alg».proof.Proof.Gen.KernelIdeal.Frame
import proofs.«149272_j55353538511629_1_alg».proof.Proof.MatmulPayload
import proofs.«149272_j55353538511629_1_alg».proof.Proof.MatmulSpec
import Idealize.ShloMosaic.Lib.Pipeline.Value

noncomputable section

namespace Cert.KernelIdeal.Matmul4

open Cert.KernelIdeal Cert.KernelIdeal.Gen Idealize.ShloMosaic Idealize.ShloMosaic.TcCoe Idealize.SL.Sem
open Cert.KernelIdeal.MatmulPayload Cert.KernelIdeal.MatmulSpec
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- Where each window's block sits at grid point t: block row t for the row operand and the result, the one
    block for the weights (decided over the 20 points). -/
theorem block_positions : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product of the operand arrays. -/
theorem written_block (c : Dev nD) (t : Fin cfg4.N) :
    (dat4 V c).flushed 2 t
      = ((cfg4.win 2).blk t).view.read (Elt Ideal) (prod128 (V c main_v59) (V c main_arg5)) := by
  show (cfg4.win 2).cut (grid4.coords t) ((dat4 V c).after 2 t) = _
  rw [after4_2]
  unfold out4_2
  rw [View.canon_unit_zero zero_offset]
  simp only [View.ld_unit_zero (S := S5000x128) zero_offset, View.ld_unit_zero (S := S128x128) zero_offset]
  obtain ⟨e00, e01, e10, e11, e20, e21⟩ := block_positions t
  funext j
  refine (pay4_apply (iblk4 V c 0 t) (iblk4 V c 1 t) j).trans ?_
  show (∑ k : Fin 128, (id (V c main_v59) : FVec Ideal S100000x128 .f32) (((cfg4.win 0).blk t).view.emb (lrow128 j k)) * (id (V c main_arg5) : FVec Ideal S128x128 .f32) (((cfg4.win 1).blk t).view.emb (rcol128 j k)))
     = ∑ k : Fin 128, (id (V c main_v59) : FVec Ideal S100000x128 .f32) (xrow128 (((cfg4.win 2).blk t).view.emb j) k) * (id (V c main_arg5) : FVec Ideal S128x128 .f32) (wcol128 (((cfg4.win 2).blk t).view.emb j) k)
  refine Finset.sum_congr rfl fun k _ => ?_
  have hj0 : (j 0).val < 5000 := (j 0).isLt
  have hj1 : (j 1).val < 128 := (j 1).isLt
  have hk : k.val < 128 := k.isLt
  have hl : ((cfg4.win 0).blk t).view.emb (lrow128 j k) = xrow128 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have hr : ((cfg4.win 1).blk t).view.emb (rcol128 j k) = wcol128 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [hl, hr]

/-- An entry of the result array is in point t's block iff each coordinate is in the block's range on its axis. -/
theorem mem_block (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v60).slice (win4_2.rect t)).set ↔ _
  rw [View.set_slice_whole, Rect.mem_set_unit]
  exact Iff.rfl

/-- Every entry of the result array is in some point's block: row r is in block r / 5000. -/
theorem blocks_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  refine ⟨⟨(i 0).val / 5000, by omega⟩, flush4_2 _, ?_⟩
  obtain ⟨-, -, -, -, e20, e21⟩ := block_positions ⟨(i 0).val / 5000, by omega⟩
  rw [mem_block]
  intro a
  match a with
  | ⟨0, _⟩ => show win4_2.index _ (0 : Fin 2) * 5000 ≤ (i 0).val ∧ (i 0).val < win4_2.index _ (0 : Fin 2) * 5000 + 5000; rw [e20]; show (i 0).val / 5000 * 5000 ≤ (i 0).val ∧ (i 0).val < (i 0).val / 5000 * 5000 + 5000; omega
  | ⟨1, _⟩ => show win4_2.index _ (1 : Fin 2) * 128 ≤ (i 1).val ∧ (i 1).val < win4_2.index _ (1 : Fin 2) * 128 + 128; rw [e21]; omega

/-- The result array after the call: the product of the two operand arrays as the call finds them. -/
theorem result_array (c : Dev nD) :
    (dat4 V c).arrAt 2 cfg4.N = prod128 (V c main_v59) (V c main_arg5) :=
  (dat4 V c).arrAt_eq_of_cover 2 _ (fun t _ => written_block V c t) blocks_cover

end Cert.KernelIdeal.Matmul4

end
-- ==== Proof.CombinePayload.lean ====
/-
  The bodies of the three combine calls, read at an entry of the block.

  A combine call works on a block of 5000 rows: with s the block of aggregated messages, x the block of the layer's
  product, d the block of the inverse-degree column (5000 by 1) and b the bias row (1 by 128), it stores
  (s + d * x) + b, the column d stretched along the row and the row b stretched down the column; the first two layers
  then take the maximum with zero. At row p and column q of the block that is

      (s (p, q) + d (p, 0) * x (p, q)) + b (0, q),      and   max ( ... ) 0   in the first two layers.

  The shape casts in the bodies are casts of a shape to itself.
-/
import proofs.«149272_j55353538511629_1_alg».proof.Proof.Gen.KernelIdeal.Skeleton
import Idealize.ShloMosaic.Lib.Pipeline.Value
import Idealize.ShloMosaic.Lib.ValueIdx

noncomputable section

namespace Cert.KernelIdeal.CombinePayload

open Cert.KernelIdeal Cert.KernelIdeal.Gen Idealize.ShloMosaic Idealize.ShloMosaic.ValueIdx

/-- The entry of the 5000-by-1 column that row `y 0` of the block reads. -/
abbrev bcol (y : S5000x128.Idx) : S5000x1.Idx := fun a => match a with
  | ⟨0, _⟩ => ⟨(y 0).val, (y 0).isLt⟩
  | ⟨1, _⟩ => ⟨0, Nat.one_pos⟩

/-- The entry of the 1-by-128 row that column `y 1` of the block reads. -/
abbrev brow (y : S5000x128.Idx) : S1x128.Idx := fun a => match a with
  | ⟨0, _⟩ => ⟨0, Nat.one_pos⟩
  | ⟨1, _⟩ => ⟨(y 1).val, (y 1).isLt⟩

/-- A 5000-by-1 column stretched to 5000 by 128 reads, at (p, q), the column's entry (p, 0). -/
theorem stretch_col {α : Type} (x : S5000x1.Idx → α) (h : S5000x1.Broadcasts S5000x128) (y : S5000x128.Idx) :
    broadcastTo S5000x128 x h y = x (bcol y) :=
  broadcastTo_apply x h y (bcol y) fun a => by
    match a with
    | ⟨0, _⟩ => exact (if_neg (by show ¬ ((5000 : ℕ) = 1); decide)).symm
    | ⟨1, _⟩ => exact (if_pos rfl).symm

/-- A 1-by-128 row stretched to 5000 by 128 reads, at (p, q), the row's entry (0, q). -/
theorem stretch_row {α : Type} (x : S1x128.Idx → α) (h : S1x128.Broadcasts S5000x128) (y : S5000x128.Idx) :
    broadcastTo S5000x128 x h y = x (brow y) :=
  broadcastTo_apply x h y (brow y) fun a => by
    match a with
    | ⟨0, _⟩ => exact (if_pos rfl).symm
    | ⟨1, _⟩ => exact (if_neg (by show ¬ ((128 : ℕ) = 1); decide)).symm

/-- The first layer's combine, at an entry of the block. -/
theorem pay1_apply (s : Vec Ideal S5000x128 .f32) (d : Vec Ideal S5000x1 .f32) (x : Vec Ideal S5000x128 .f32)
    (b : Vec Ideal S1x128 .f32) (y : S5000x128.Idx) :
    k1_pay1 (F := Ideal) s d x b y
      = max ((s y + d (bcol y) * x y) + b (brow y)) (Ideal.ofBits .f32 0x00000000#32) := by
  unfold k1_pay1
  simp only [shapeCast_self]
  show max ((s y + broadcastTo S5000x128 d _ y * x y) + broadcastTo S5000x128 b _ y) _ = _
  rw [stretch_col, stretch_row]
  rfl

/-- The second layer's combine, at an entry of the block. -/
theorem pay3_apply (s : Vec Ideal S5000x128 .f32) (d : Vec Ideal S5000x1 .f32) (x : Vec Ideal S5000x128 .f32)
    (b : Vec Ideal S1x128 .f32) (y : S5000x128.Idx) :
    k3_pay1 (F := Ideal) s d x b y
      = max ((s y + d (bcol y) * x y) + b (brow y)) (Ideal.ofBits .f32 0x00000000#32) := by
  unfold k3_pay1
  simp only [shapeCast_self]
  show max ((s y + broadcastTo S5000x128 d _ y * x y) + broadcastTo S5000x128 b _ y) _ = _
  rw [stretch_col, stretch_row]
  rfl

/-- The third layer's combine (no maximum), at an entry of the block. -/
theorem pay5_apply (s : Vec Ideal S5000x128 .f32) (d : Vec Ideal S5000x1 .f32) (x : Vec Ideal S5000x128 .f32)
    (b : Vec Ideal S1x128 .f32) (y : S5000x128.Idx) :
    k5_pay1 (F := Ideal) s d x b y = (s y + d (bcol y) * x y) + b (brow y) := by
  unfold k5_pay1
  simp only [shapeCast_self]
  show (s y + broadcastTo S5000x128 d _ y * x y) + broadcastTo S5000x128 b _ y = _
  rw [stretch_col, stretch_row]

end Cert.KernelIdeal.CombinePayload

end
-- ==== Proof.CombineSpec.lean ====
/-
  What a combine call leaves in its result array, as one function of its four operand arrays.

  With s the aggregated messages and x the layer's product (both 100000 by 128), d the inverse degrees as a
  100000-by-1 column and b the bias as a 1-by-128 row, entry (r, q) of the result is

      (s (r, q) + d (r, 0) * x (r, q)) + b (0, q),

  and the first two layers take the maximum of that with zero. The sum is kept in this order: on the extended
  reals addition is not regrouped here, both programs add in the same order.
-/
import proofs.«149272_j55353538511629_1_alg».proof.KernelIdeal
import Idealize.ShloMosaic.PureOps.Ideal

noncomputable section

namespace Cert.KernelIdeal.CombineSpec

open Cert.KernelIdeal Idealize.ShloMosaic

/-- The entry of the inverse-degree column that row `i 0` reads. -/
abbrev colOf (i : S100000x128.Idx) : S100000x1.Idx := fun a => match a with
  | ⟨0, _⟩ => ⟨(i 0).val, (i 0).isLt⟩
  | ⟨1, _⟩ => ⟨0, Nat.one_pos⟩

/-- The entry of the bias row that column `i 1` reads. -/
abbrev rowOf (i : S100000x128.Idx) : S1x128.Idx := fun a => match a with
  | ⟨0, _⟩ => ⟨0, Nat.one_pos⟩
  | ⟨1, _⟩ => ⟨(i 1).val, (i 1).isLt⟩

/-- The combine of the third layer: messages plus the self term plus the bias. -/
def combine (s x : FVec Ideal S100000x128 .f32) (d : FVec Ideal S100000x1 .f32) (b : FVec Ideal S1x128 .f32) :
    FVec Ideal S100000x128 .f32 :=
  fun i => (s i + d (colOf i) * x i) + b (rowOf i)

/-- The combine of the first two layers: the same, then the maximum with zero. -/
def combineRelu (s x : FVec Ideal S100000x128 .f32) (d : FVec Ideal S100000x1 .f32) (b : FVec Ideal S1x128 .f32) :
    FVec Ideal S100000x128 .f32 :=
  fun i => max ((s i + d (colOf i) * x i) + b (rowOf i)) (Ideal.ofBits .f32 0x00000000#32)

end Cert.KernelIdeal.CombineSpec

end
-- ==== Proof.Combine1.lean ====
/-
  The first layer's combine call, from its blocks to its whole result array.

  The call runs over 20 grid points; point t works on rows 5000 t .. 5000 t + 4999. Its four operand windows move with
  the result window: the messages, the product and the inverse-degree column at block row t, the bias row always at
  its one block. So what point t writes back is block t of ONE function of the four operand arrays as the call finds
  them, the combine of CombineSpec, and since the 20 blocks tile the 100000 rows the result array ends holding that
  function.
-/
import proofs.«149272_j55353538511629_1_alg».proof.Proof.Gen.KernelIdeal.Frame
import proofs.«149272_j55353538511629_1_alg».proof.Proof.CombinePayload
import proofs.«149272_j55353538511629_1_alg».proof.Proof.CombineSpec
import Idealize.ShloMosaic.Lib.Pipeline.Value

noncomputable section

namespace Cert.KernelIdeal.Combine1

open Cert.KernelIdeal Cert.KernelIdeal.Gen Idealize.ShloMosaic Idealize.ShloMosaic.TcCoe Idealize.SL.Sem
open Cert.KernelIdeal.CombinePayload Cert.KernelIdeal.CombineSpec
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- Where each window's block sits at grid point t: block row t for the three tall operands and the result, the
    one block for the bias row (decided over the 20 points). -/
theorem block_positions : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the combine of the operand arrays. -/
theorem written_block (c : Dev nD) (t : Fin cfg1.N) :
    (dat1 V c).flushed 4 t
      = ((cfg1.win 4).blk t).view.read (Elt Ideal) (combineRelu (V c main_v41) (V c main_v28) (V c main_v27) (V c main_v42)) := by
  show (cfg1.win 4).cut (grid1.coords t) ((dat1 V c).after 4 t) = _
  rw [after1_4]
  unfold out1_4
  rw [View.canon_unit_zero zero_offset]
  simp only [View.ld_unit_zero (S := S5000x128) zero_offset, View.ld_unit_zero (S := S5000x1) zero_offset,
    View.ld_unit_zero (S := S1x128) zero_offset]
  obtain ⟨e00, e01, e10, e11, e20, e21, e30, e31, e40, e41⟩ := block_positions t
  funext j
  refine (pay1_apply (iblk1 V c 0 t) (iblk1 V c 2 t) (iblk1 V c 1 t) (iblk1 V c 3 t) j).trans ?_
  show max (((id (V c main_v41) : FVec Ideal S100000x128 .f32) (((cfg1.win 0).blk t).view.emb j) + (id (V c main_v27) : FVec Ideal S100000x1 .f32) (((cfg1.win 2).blk t).view.emb (bcol j)) * (id (V c main_v28) : FVec Ideal S100000x128 .f32) (((cfg1.win 1).blk t).view.emb j)) + (id (V c main_v42) : FVec Ideal S1x128 .f32) (((cfg1.win 3).blk t).view.emb (brow j))) (Ideal.ofBits .f32 0x00000000#32)
     = max (((id (V c main_v41) : FVec Ideal S100000x128 .f32) (((cfg1.win 4).blk t).view.emb j) + (id (V c main_v27) : FVec Ideal S100000x1 .f32) (colOf (((cfg1.win 4).blk t).view.emb j)) * (id (V c main_v28) : FVec Ideal S100000x128 .f32) (((cfg1.win 4).blk t).view.emb j)) + (id (V c main_v42) : FVec Ideal S1x128 .f32) (rowOf (((cfg1.win 4).blk t).view.emb j))) (Ideal.ofBits .f32 0x00000000#32)
  have hj0 : (j 0).val < 5000 := (j 0).isLt
  have hj1 : (j 1).val < 128 := (j 1).isLt
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have h2 : ((cfg1.win 2).blk t).view.emb (bcol j) = colOf (((cfg1.win 4).blk t).view.emb j) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (brow j) = rowOf (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [h0, h1, h2, h3]

/-- An entry of the result array is in point t's block iff each coordinate is in the block's range on its axis. -/
theorem mem_block (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Every entry of the result array is in some point's block: row r is in block r / 5000. -/
theorem blocks_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  refine ⟨⟨(i 0).val / 5000, by omega⟩, flush1_4 _, ?_⟩
  obtain ⟨-, -, -, -, -, -, -, -, e40, e41⟩ := block_positions ⟨(i 0).val / 5000, by omega⟩
  rw [mem_block]
  intro a
  match a with
  | ⟨0, _⟩ => show win1_4.index _ (0 : Fin 2) * 5000 ≤ (i 0).val ∧ (i 0).val < win1_4.index _ (0 : Fin 2) * 5000 + 5000; rw [e40]; show (i 0).val / 5000 * 5000 ≤ (i 0).val ∧ (i 0).val < (i 0).val / 5000 * 5000 + 5000; omega
  | ⟨1, _⟩ => show win1_4.index _ (1 : Fin 2) * 128 ≤ (i 1).val ∧ (i 1).val < win1_4.index _ (1 : Fin 2) * 128 + 128; rw [e41]; omega

/-- The result array after the call: the combine of the four operand arrays as the call finds them. -/
theorem result_array (c : Dev nD) :
    (dat1 V c).arrAt 4 cfg1.N = combineRelu (V c main_v41) (V c main_v28) (V c main_v27) (V c main_v42) :=
  (dat1 V c).arrAt_eq_of_cover 4 _ (fun t _ => written_block V c t) blocks_cover

end Cert.KernelIdeal.Combine1

end
-- ==== Proof.Combine3.lean ====
/-
  The second layer's combine call, from its blocks to its whole result array.

  The call runs over 20 grid points; point t works on rows 5000 t .. 5000 t + 4999. Its four operand windows move with
  the result window: the messages, the product and the inverse-degree column at block row t, the bias row always at
  its one block. So what point t writes back is block t of ONE function of the four operand arrays as the call finds
  them, the combine of CombineSpec, and since the 20 blocks tile the 100000 rows the result array ends holding that
  function.
-/
import proofs.«149272_j55353538511629_1_alg».proof.Proof.Gen.KernelIdeal.Frame
import proofs.«149272_j55353538511629_1_alg».proof.Proof.CombinePayload
import proofs.«149272_j55353538511629_1_alg».proof.Proof.CombineSpec
import Idealize.ShloMosaic.Lib.Pipeline.Value

noncomputable section

namespace Cert.KernelIdeal.Combine3

open Cert.KernelIdeal Cert.KernelIdeal.Gen Idealize.ShloMosaic Idealize.ShloMosaic.TcCoe Idealize.SL.Sem
open Cert.KernelIdeal.CombinePayload Cert.KernelIdeal.CombineSpec
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- Where each window's block sits at grid point t: block row t for the three tall operands and the result, the
    one block for the bias row (decided over the 20 points). -/
theorem block_positions : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the combine of the operand arrays. -/
theorem written_block (c : Dev nD) (t : Fin cfg3.N) :
    (dat3 V c).flushed 4 t
      = ((cfg3.win 4).blk t).view.read (Elt Ideal) (combineRelu (V c main_v57) (V c main_v44) (V c main_v27) (V c main_v58)) := by
  show (cfg3.win 4).cut (grid3.coords t) ((dat3 V c).after 4 t) = _
  rw [after3_4]
  unfold out3_4
  rw [View.canon_unit_zero zero_offset]
  simp only [View.ld_unit_zero (S := S5000x128) zero_offset, View.ld_unit_zero (S := S5000x1) zero_offset,
    View.ld_unit_zero (S := S1x128) zero_offset]
  obtain ⟨e00, e01, e10, e11, e20, e21, e30, e31, e40, e41⟩ := block_positions t
  funext j
  refine (pay3_apply (iblk3 V c 0 t) (iblk3 V c 2 t) (iblk3 V c 1 t) (iblk3 V c 3 t) j).trans ?_
  show max (((id (V c main_v57) : FVec Ideal S100000x128 .f32) (((cfg3.win 0).blk t).view.emb j) + (id (V c main_v27) : FVec Ideal S100000x1 .f32) (((cfg3.win 2).blk t).view.emb (bcol j)) * (id (V c main_v44) : FVec Ideal S100000x128 .f32) (((cfg3.win 1).blk t).view.emb j)) + (id (V c main_v58) : FVec Ideal S1x128 .f32) (((cfg3.win 3).blk t).view.emb (brow j))) (Ideal.ofBits .f32 0x00000000#32)
     = max (((id (V c main_v57) : FVec Ideal S100000x128 .f32) (((cfg3.win 4).blk t).view.emb j) + (id (V c main_v27) : FVec Ideal S100000x1 .f32) (colOf (((cfg3.win 4).blk t).view.emb j)) * (id (V c main_v44) : FVec Ideal S100000x128 .f32) (((cfg3.win 4).blk t).view.emb j)) + (id (V c main_v58) : FVec Ideal S1x128 .f32) (rowOf (((cfg3.win 4).blk t).view.emb j))) (Ideal.ofBits .f32 0x00000000#32)
  have hj0 : (j 0).val < 5000 := (j 0).isLt
  have hj1 : (j 1).val < 128 := (j 1).isLt
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have h2 : ((cfg3.win 2).blk t).view.emb (bcol j) = colOf (((cfg3.win 4).blk t).view.emb j) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : ((cfg3.win 3).blk t).view.emb (brow j) = rowOf (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  rw [h0, h1, h2, h3]

/-- An entry of the result array is in point t's block iff each coordinate is in the block's range on its axis. -/
theorem mem_block (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v59).slice (win3_4.rect t)).set ↔ _
  rw [View.set_slice_whole, Rect.mem_set_unit]
  exact Iff.rfl

/-- Every entry of the result array is in some point's block: row r is in block r / 5000. -/
theorem blocks_cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  refine ⟨⟨(i 0).val / 5000, by omega⟩, flush3_4 _, ?_⟩
  obtain ⟨-, -, -, -, -, -, -, -, e40, e41⟩ := block_positions ⟨(i 0).val / 5000, by omega⟩
  rw [mem_block]
  intro a
  match a with
  | ⟨0, _⟩ => show win3_4.index _ (0 : Fin 2) * 5000 ≤ (i 0).val ∧ (i 0).val < win3_4.index _ (0 : Fin 2) * 5000 + 5000; rw [e40]; show (i 0).val / 5000 * 5000 ≤ (i 0).val ∧ (i 0).val < (i 0).val / 5000 * 5000 + 5000; omega
  | ⟨1, _⟩ => show win3_4.index _ (1 : Fin 2) * 128 ≤ (i 1).val ∧ (i 1).val < win3_4.index _ (1 : Fin 2) * 128 + 128; rw [e41]; omega

/-- The result array after the call: the combine of the four operand arrays as the call finds them. -/
theorem result_array (c : Dev nD) :
    (dat3 V c).arrAt 4 cfg3.N = combineRelu (V c main_v57) (V c main_v44) (V c main_v27) (V c main_v58) :=
  (dat3 V c).arrAt_eq_of_cover 4 _ (fun t _ => written_block V c t) blocks_cover

end Cert.KernelIdeal.Combine3

end
-- ==== Proof.Combine5.lean ====
/-
  The third layer's combine call, from its blocks to its whole result array.

  The call runs over 20 grid points; point t works on rows 5000 t .. 5000 t + 4999. Its four operand windows move with
  the result window: the messages, the product and the inverse-degree column at block row t, the bias row always at
  its one block. So what point t writes back is block t of ONE function of the four operand arrays as the call finds
  them, the combine of CombineSpec, and since the 20 blocks tile the 100000 rows the result array ends holding that
  function.
-/
import proofs.«149272_j55353538511629_1_alg».proof.Proof.Gen.KernelIdeal.Frame
import proofs.«149272_j55353538511629_1_alg».proof.Proof.CombinePayload
import proofs.«149272_j55353538511629_1_alg».proof.Proof.CombineSpec
import Idealize.ShloMosaic.Lib.Pipeline.Value

noncomputable section

namespace Cert.KernelIdeal.Combine5

open Cert.KernelIdeal Cert.KernelIdeal.Gen Idealize.ShloMosaic Idealize.ShloMosaic.TcCoe Idealize.SL.Sem
open Cert.KernelIdeal.CombinePayload Cert.KernelIdeal.CombineSpec
open Idealize.ShloMosaic.Pipeline (Dat)

variable (V : (c : Dev nD) → (b : Ref sig .tc) → Buf (Elt Ideal) ((c : Thread nD τ).loc b))

theorem zero_offset : (![0, 0] : Fin 2 → Nat) = fun _ => 0 := funext fun a => by fin_cases a <;> rfl

/-- Where each window's block sits at grid point t: block row t for the three tall operands and the result, the
    one block for the bias row (decided over the 20 points). -/
theorem block_positions : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point t writes back is block t of the combine of the operand arrays. -/
theorem written_block (c : Dev nD) (t : Fin cfg5.N) :
    (dat5 V c).flushed 4 t
      = ((cfg5.win 4).blk t).view.read (Elt Ideal) (combine (V c main_v73) (V c main_v60) (V c main_v27) (V c main_v74)) := by
  show (cfg5.win 4).cut (grid5.coords t) ((dat5 V c).after 4 t) = _
  rw [after5_4]
  unfold out5_4
  rw [View.canon_unit_zero zero_offset]
  simp only [View.ld_unit_zero (S := S5000x128) zero_offset, View.ld_unit_zero (S := S5000x1) zero_offset,
    View.ld_unit_zero (S := S1x128) zero_offset]
  obtain ⟨e00, e01, e10, e11, e20, e21, e30, e31, e40, e41⟩ := block_positions t
  funext j
  refine (pay5_apply (iblk5 V c 0 t) (iblk5 V c 2 t) (iblk5 V c 1 t) (iblk5 V c 3 t) j).trans ?_
  show ((id (V c main_v73) : FVec Ideal S100000x128 .f32) (((cfg5.win 0).blk t).view.emb j) + (id (V c main_v27) : FVec Ideal S100000x1 .f32) (((cfg5.win 2).blk t).view.emb (bcol j)) * (id (V c main_v60) : FVec Ideal S100000x128 .f32) (((cfg5.win 1).blk t).view.emb j)) + (id (V c main_v74) : FVec Ideal S1x128 .f32) (((cfg5.win 3).blk t).view.emb (brow j))
     = ((id (V c main_v73) : FVec Ideal S100000x128 .f32) (((cfg5.win 4).blk t).view.emb j) + (id (V c main_v27) : FVec Ideal S100000x1 .f32) (colOf (((cfg5.win 4).blk t).view.emb j)) * (id (V c main_v60) : FVec Ideal S100000x128 .f32) (((cfg5.win 4).blk t).view.emb j)) + (id (V c main_v74) : FVec Ideal S1x128 .f32) (rowOf (((cfg5.win 4).blk t).view.emb j))
  have hj0 : (j 0).val < 5000 := (j 0).isLt
  have hj1 : (j 1).val < 128 := (j 1).isLt
  have h0 : ((cfg5.win 0).blk t).view.emb j = ((cfg5.win 4).blk t).view.emb j := by
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 128 + 1 * (j 1).val = win5_4.index t (1 : Fin 2) * 128 + 1 * (j 1).val; omega
  have h1 : ((cfg5.win 1).blk t).view.emb j = ((cfg5.win 4).blk t).view.emb j := by
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 128 + 1 * (j 1).val = win5_4.index t (1 : Fin 2) * 128 + 1 * (j 1).val; omega
  have h2 : ((cfg5.win 2).blk t).view.emb (bcol j) = colOf (((cfg5.win 4).blk t).view.emb j) := by
    funext a; apply Fin.ext
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  have h3 : ((cfg5.win 3).blk t).view.emb (brow j) = rowOf (((cfg5.win 4).blk t).view.emb j) := by
    funext a; apply Fin.ext
    match a with
    | ⟨0, _⟩ => show win5_3.index t (0 : Fin 2) * 1 + 1 * 0 = 0; omega
    | ⟨1, _⟩ => show win5_3.index t (1 : Fin 2) * 128 + 1 * (j 1).val = win5_4.index t (1 : Fin 2) * 128 + 1 * (j 1).val; omega
  rw [h0, h1, h2, h3]

/-- An entry of the result array is in point t's block iff each coordinate is in the block's range on its axis. -/
theorem mem_block (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v75).slice (win5_4.rect t)).set ↔ _
  rw [View.set_slice_whole, Rect.mem_set_unit]
  exact Iff.rfl

/-- Every entry of the result array is in some point's block: row r is in block r / 5000. -/
theorem blocks_cover (i : S100000x128.Idx) :
    ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 20 := N_5
  refine ⟨⟨(i 0).val / 5000, by omega⟩, flush5_4 _, ?_⟩
  obtain ⟨-, -, -, -, -, -, -, -, e40, e41⟩ := block_positions ⟨(i 0).val / 5000, by omega⟩
  rw [mem_block]
  intro a
  match a with
  | ⟨0, _⟩ => show win5_4.index _ (0 : Fin 2) * 5000 ≤ (i 0).val ∧ (i 0).val < win5_4.index _ (0 : Fin 2) * 5000 + 5000; rw [e40]; show (i 0).val / 5000 * 5000 ≤ (i 0).val ∧ (i 0).val < (i 0).val / 5000 * 5000 + 5000; omega
  | ⟨1, _⟩ => show win5_4.index _ (1 : Fin 2) * 128 ≤ (i 1).val ∧ (i 1).val < win5_4.index _ (1 : Fin 2) * 128 + 128; rw [e41]; omega

/-- The result array after the call: the combine of the four operand arrays as the call finds them. -/
theorem result_array (c : Dev nD) :
    (dat5 V c).arrAt 4 cfg5.N = combine (V c main_v73) (V c main_v60) (V c main_v27) (V c main_v74) :=
  (dat5 V c).arrAt_eq_of_cover 4 _ (fun t _ => written_block V c t) blocks_cover

end Cert.KernelIdeal.Combine5

end
-- ==== Proof.HostForms.lean ====
/-
  The host's forms of the product and of the combine are the same functions.

  The reference computes each layer's product by one whole dot_general, which on the extended reals is, entry by
  entry, the sum over k of x (r, k) * w (k, q): the product of MatmulSpec. It computes the combine on whole arrays,
  stretching the inverse degrees (a vector of length 100000) to a column and then along the rows, and the bias (a
  vector of length 128) to a row and then down the columns; read at an entry (r, q) these are d (r) and b (q), and a
  vector reshaped to a 100000-by-1 column or a 1-by-128 row reads the same entries. So the host's
  (s + stretch d * x) + stretch b is the combine of CombineSpec applied to the reshaped vectors, and the maximum with
  the stretched zero is the maximum with zero entry by entry.
-/
import proofs.«149272_j55353538511629_1_alg».proof.Proof.Gen.ReferenceIdeal.Read
import proofs.«149272_j55353538511629_1_alg».proof.Proof.MatmulSpec
import proofs.«149272_j55353538511629_1_alg».proof.Proof.CombineSpec
import proofs.«149272_j55353538511629_1_alg».proof.Proof.LibPlainDot
import Idealize.ShloMosaic.Lib.Pipeline.Value
import Idealize.ShloMosaic.Lib.ValueIdx
import Idealize.ShloMosaic.PureOps.Ideal.Laws

noncomputable section

namespace Cert.HostForms

open Cert.ReferenceIdeal Cert.ReferenceIdeal.Gen Cert.ReferenceIdeal.Read Idealize.ShloMosaic Idealize.ShloMosaic.ValueIdx
open Cert.KernelIdeal.MatmulSpec Cert.KernelIdeal.CombineSpec

/-! ## The products -/

theorem xrow32_ix (i : S100000x128.Idx) (k : Fin 32) : xrow32 i k = lidx_main_v27 i k :=
  funext fun a => by match a with | ⟨0, _⟩ => rfl | ⟨1, _⟩ => rfl
theorem wcol32_ix (i : S100000x128.Idx) (k : Fin 32) : wcol32 i k = ridx_main_v27 i k :=
  funext fun a => by match a with | ⟨0, _⟩ => rfl | ⟨1, _⟩ => rfl
theorem xrow128_ix (i : S100000x128.Idx) (k : Fin 128) : xrow128 i k = ix2 (i 0) k :=
  funext fun a => by match a with | ⟨0, _⟩ => rfl | ⟨1, _⟩ => rfl
theorem wcol128_ix (i : S100000x128.Idx) (k : Fin 128) : wcol128 i k = ix2 k (i 1) :=
  funext fun a => by match a with | ⟨0, _⟩ => rfl | ⟨1, _⟩ => rfl

/-- The first layer's dot_general is the 32-term product. -/
theorem dot32 (x : FVec Ideal S100000x32 .f32) (w : FVec Ideal S32x128 .f32) :
    val_main_v27 (F := Ideal) x w = prod32 x w := by
  funext i
  rw [val_main_v27_apply]
  unfold prod32
  simp only [xrow32_ix, wcol32_ix]

/-- A dot_general of a 100000-by-128 array with 128-by-128 weights is the 128-term product. -/
theorem dot128 (x : FVec Ideal S100000x128 .f32) (w : FVec Ideal S128x128 .f32) :
    Host.dotGeneral (F := Ideal) dot_S100000x128_S128x128_S100000x128_1_0_0_1_n_n none x w = prod128 x w := by
  funext i
  simp only [Host.dotGeneral]
  rw [Ideal.dotGeneral_apply]
  unfold prod128
  simp only [xrow128_ix, wcol128_ix]
  conv_lhs => rw [eq_ix2 i]
  exact Cert.LibPlainDot.contr_sum_ix2 dot_S100000x128_S128x128_S100000x128_1_0_0_1_n_n rfl rfl rfl rfl
    lhs_main_v49_0 rhs_main_v49_1 x w (i 0) (i 1)

/-! ## The stretches and the reshapes, read at an entry -/

theorem colOf_ix (i : S100000x128.Idx) : colOf i = idx_main_v42 i :=
  funext fun a => by match a with | ⟨0, _⟩ => rfl | ⟨1, _⟩ => rfl
theorem rowOf_ix (i : S100000x128.Idx) : rowOf i = idx_main_v46 i :=
  funext fun a => by match a with | ⟨0, _⟩ => rfl | ⟨1, _⟩ => rfl

/-- A 100000-by-1 column stretched along the rows reads the column's entry (r, 0). -/
theorem stretch_col (y : FVec Ideal S100000x1 .f32) (i : S100000x128.Idx) :
    broadcastInDim S100000x128 ![0, 1] bcast_S100000x1_S100000x128_0_1 y i = y (idx_main_v42 i) :=
  broadcastInDim_apply _ bcast_S100000x1_S100000x128_0_1 y i (idx_main_v42 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A vector of length 100000 made a column reads its entry r. -/
theorem col_of_vec (y : FVec Ideal S100000 .f32) (j : S100000x1.Idx) :
    broadcastInDim S100000x1 ![0] bcast_S100000_S100000x1_0 y j = y (idx_main_v41 j) :=
  broadcastInDim_apply _ bcast_S100000_S100000x1_0 y j (idx_main_v41 j) (fun a => match a with
    | ⟨0, _⟩ => by show (j 0).val = if (100000 : Nat) = 1 then 0 else (j 0).val; rw [if_neg (by decide)])

/-- A 1-by-128 row stretched down the columns reads the row's entry (0, q). -/
theorem stretch_row (y : FVec Ideal S1x128 .f32) (i : S100000x128.Idx) :
    broadcastInDim S100000x128 ![0, 1] bcast_S1x128_S100000x128_0_1 y i = y (idx_main_v46 i) :=
  broadcastInDim_apply _ bcast_S1x128_S100000x128_0_1 y i (idx_main_v46 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- A vector of length 128 made a row reads its entry q. -/
theorem row_of_vec (y : FVec Ideal S128 .f32) (j : S1x128.Idx) :
    broadcastInDim S1x128 ![1] bcast_S128_S1x128_1 y j = y (idx_main_v45 j) :=
  broadcastInDim_apply _ bcast_S128_S1x128_1 y j (idx_main_v45 j) (fun a => match a with
    | ⟨0, _⟩ => by show (j 1).val = if (128 : Nat) = 1 then 0 else (j 1).val; rw [if_neg (by decide)])

/-- A vector of length 100000 reshaped to a 100000-by-1 column reads, at (r, 0), its entry r. -/
theorem col_reshape (y : FVec Ideal S100000 .f32) (h : S100000.ShapeCasts S100000x1) (j : S100000x1.Idx) :
    shapeCast S100000x1 y h j = y (idx_main_v41 j) :=
  shapeCast_apply y h j (idx_main_v41 j) (by
    rw [Shape.rowMajor_val_one, Shape.rowMajor_val_two]
    have h1 : (j 1).val < 1 := (j 1).isLt
    show (j 0).val = (j 0).val * 1 + (j 1).val
    omega)

/-- A vector of length 128 reshaped to a 1-by-128 row reads, at (0, q), its entry q. -/
theorem row_reshape (y : FVec Ideal S128 .f32) (h : S128.ShapeCasts S1x128) (j : S1x128.Idx) :
    shapeCast S1x128 y h j = y (idx_main_v45 j) :=
  shapeCast_apply y h j (idx_main_v45 j) (by
    rw [Shape.rowMajor_val_one, Shape.rowMajor_val_two]
    have h0 : (j 0).val < 1 := (j 0).isLt
    show (j 1).val = (j 0).val * 128 + (j 1).val
    omega)

/-! ## The combine -/

/-- The host's combine on whole arrays is the combine of the reshaped vectors. -/
theorem combine_host (s x : FVec Ideal S100000x128 .f32) (dv : FVec Ideal S100000 .f32) (bv : FVec Ideal S128 .f32)
    (hd : S100000.ShapeCasts S100000x1) (hb : S128.ShapeCasts S1x128) :
    addf (addf s (mulf (broadcastInDim S100000x128 ![0, 1] bcast_S100000x1_S100000x128_0_1
        (broadcastInDim S100000x1 ![0] bcast_S100000_S100000x1_0 dv)) x))
      (broadcastInDim S100000x128 ![0, 1] bcast_S1x128_S100000x128_0_1 (broadcastInDim S1x128 ![1] bcast_S128_S1x128_1 bv))
      = combine s x (shapeCast S100000x1 dv hd) (shapeCast S1x128 bv hb) := by
  funext i
  unfold combine
  show (s i + broadcastInDim S100000x128 ![0, 1] bcast_S100000x1_S100000x128_0_1
        (broadcastInDim S100000x1 ![0] bcast_S100000_S100000x1_0 dv) i * x i)
      + broadcastInDim S100000x128 ![0, 1] bcast_S1x128_S100000x128_0_1 (broadcastInDim S1x128 ![1] bcast_S128_S1x128_1 bv) i
    = (s i + shapeCast S100000x1 dv hd (colOf i) * x i) + shapeCast S1x128 bv hb (rowOf i)
  rw [stretch_col, col_of_vec, stretch_row, row_of_vec, col_reshape, row_reshape, colOf_ix, rowOf_ix]

/-- The maximum with the stretched zero is the maximum with zero, entry by entry. -/
theorem relu_host (v : FVec Ideal S100000x128 .f32) :
    maximumf v (broadcastInDim S100000x128 ![] bcast_S_S100000x128 (constant (F := Ideal) S_ .f32 0x00000000#32))
      = fun i => max (v i) (Ideal.ofBits .f32 0x00000000#32) := by
  funext i
  show max (v i) (broadcastInDim S100000x128 ![] bcast_S_S100000x128 (constant (F := Ideal) S_ .f32 0x00000000#32) i) = _
  rw [broadcastInDim_apply _ bcast_S_S100000x128 _ i (fun a => a.elim0) (fun a => a.elim0)]
  rfl

/-- The host's combine followed by the maximum with zero is the combine of the first two layers. -/
theorem combineRelu_host (s x : FVec Ideal S100000x128 .f32) (dv : FVec Ideal S100000 .f32) (bv : FVec Ideal S128 .f32)
    (hd : S100000.ShapeCasts S100000x1) (hb : S128.ShapeCasts S1x128) :
    maximumf (addf (addf s (mulf (broadcastInDim S100000x128 ![0, 1] bcast_S100000x1_S100000x128_0_1
        (broadcastInDim S100000x1 ![0] bcast_S100000_S100000x1_0 dv)) x))
      (broadcastInDim S100000x128 ![0, 1] bcast_S1x128_S100000x128_0_1 (broadcastInDim S1x128 ![1] bcast_S128_S1x128_1 bv)))
      (broadcastInDim S100000x128 ![] bcast_S_S100000x128 (constant (F := Ideal) S_ .f32 0x00000000#32))
      = combineRelu s x (shapeCast S100000x1 dv hd) (shapeCast S1x128 bv hb) := by
  rw [combine_host s x dv bv hd hb, relu_host]
  rfl

end Cert.HostForms

end
-- ==== Proof.RefLayers.lean ====
/-
  The reference's layers, stage by stage, as the specification functions.

  In the reference each layer is: a whole dot_general (the product), the aggregation of the product over the
  edges, and the host's combine of the aggregated messages, the product, the stretched inverse degrees and the
  stretched bias, with the maximum with zero in the first two layers. Unfolding the stages' definitions, these
  are the product and the combine of the specification applied to the earlier stages.
-/
import proofs.«149272_j55353538511629_1_alg».proof.Proof.HostForms

noncomputable section

namespace Cert.RefLayers

open Cert.ReferenceIdeal Cert.ReferenceIdeal.Gen Cert.ReferenceIdeal.Read Idealize.ShloMosaic
open Cert.KernelIdeal.MatmulSpec Cert.KernelIdeal.CombineSpec Cert.HostForms

variable (hd : S100000.ShapeCasts S100000x1) (hb : S128.ShapeCasts S1x128)

/-- Layer 1, the product. -/
theorem prod1 (x0 : (⟨S100000x32, .f32⟩ : BufTy).Contents (Elt Ideal)) (x1 : (⟨S32x128, .f32⟩ : BufTy).Contents (Elt Ideal)) :
    val_main_v27 (F := Ideal) x0 x1 = prod32 x0 x1 := dot32 x0 x1

/-- Layer 1, the combine with the maximum. -/
theorem hidden1 (x0 : (⟨S100000x32, .f32⟩ : BufTy).Contents (Elt Ideal)) (x1 : (⟨S32x128, .f32⟩ : BufTy).Contents (Elt Ideal)) (x2 : (⟨S128, .f32⟩ : BufTy).Contents (Elt Ideal)) (x9 : (⟨S2x1600000, .i32⟩ : BufTy).Contents (Elt Ideal)) :
    val_main_v48 (F := Ideal) x0 x1 x2 x9
      = combineRelu (val_main_v40 (F := Ideal) x0 x1 x9) (val_main_v27 (F := Ideal) x0 x1)
          (shapeCast S100000x1 (val_main_v26 (F := Ideal) x9) hd) (shapeCast S1x128 x2 hb) :=
  combineRelu_host (val_main_v40 (F := Ideal) x0 x1 x9) (val_main_v27 (F := Ideal) x0 x1) (val_main_v26 (F := Ideal) x9) x2 hd hb

/-- Layer 2, the product. -/
theorem prod2 (x0 : (⟨S100000x32, .f32⟩ : BufTy).Contents (Elt Ideal)) (x1 : (⟨S32x128, .f32⟩ : BufTy).Contents (Elt Ideal)) (x2 : (⟨S128, .f32⟩ : BufTy).Contents (Elt Ideal)) (x3 : (⟨S128x128, .f32⟩ : BufTy).Contents (Elt Ideal)) (x9 : (⟨S2x1600000, .i32⟩ : BufTy).Contents (Elt Ideal)) :
    val_main_v49 (F := Ideal) x0 x1 x2 x3 x9 = prod128 (val_main_v48 (F := Ideal) x0 x1 x2 x9) x3 :=
  dot128 (val_main_v48 (F := Ideal) x0 x1 x2 x9) x3

/-- Layer 2, the combine with the maximum. -/
theorem hidden2 (x0 : (⟨S100000x32, .f32⟩ : BufTy).Contents (Elt Ideal)) (x1 : (⟨S32x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x9 : (⟨S2x1600000, .i32⟩ : BufTy).Contents (Elt Ideal)) :
    val_main_v70 (F := Ideal) x0 x1 x2 x3 x4 x9
      = combineRelu (val_main_v62 (F := Ideal) x0 x1 x2 x3 x9) (val_main_v49 (F := Ideal) x0 x1 x2 x3 x9)
          (shapeCast S100000x1 (val_main_v26 (F := Ideal) x9) hd) (shapeCast S1x128 x4 hb) :=
  combineRelu_host (val_main_v62 (F := Ideal) x0 x1 x2 x3 x9) (val_main_v49 (F := Ideal) x0 x1 x2 x3 x9) (val_main_v26 (F := Ideal) x9) x4 hd hb

/-- Layer 3, the product. -/
theorem prod3 (x0 : (⟨S100000x32, .f32⟩ : BufTy).Contents (Elt Ideal)) (x1 : (⟨S32x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x9 : (⟨S2x1600000, .i32⟩ : BufTy).Contents (Elt Ideal)) :
    val_main_v71 (F := Ideal) x0 x1 x2 x3 x4 x5 x9 = prod128 (val_main_v70 (F := Ideal) x0 x1 x2 x3 x4 x9) x5 :=
  dot128 (val_main_v70 (F := Ideal) x0 x1 x2 x3 x4 x9) x5

/-- Layer 3, the combine (no maximum). -/
theorem hidden3 (x0 : (⟨S100000x32, .f32⟩ : BufTy).Contents (Elt Ideal)) (x1 : (⟨S32x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x9 : (⟨S2x1600000, .i32⟩ : BufTy).Contents (Elt Ideal)) :
    val_main_v91 (F := Ideal) x0 x1 x2 x3 x4 x5 x6 x9
      = combine (val_main_v84 (F := Ideal) x0 x1 x2 x3 x4 x5 x9) (val_main_v71 (F := Ideal) x0 x1 x2 x3 x4 x5 x9)
          (shapeCast S100000x1 (val_main_v26 (F := Ideal) x9) hd) (shapeCast S1x128 x6 hb) :=
  combine_host (val_main_v84 (F := Ideal) x0 x1 x2 x3 x4 x5 x9) (val_main_v71 (F := Ideal) x0 x1 x2 x3 x4 x5 x9) (val_main_v26 (F := Ideal) x9) x6 hd hb

end Cert.RefLayers

end
-- ==== Proof.Stages.lean ====
/-
  The kernel program, boundary by boundary, against the reference's stages.

  Both programs compute, from the same eleven arguments: the two index rows of the edge list, the inverse square
  roots of the degrees, the edge weights and the inverse degrees; then three layers, each a product with the
  layer's weights, an aggregation of the product over the edges, and a combine; then the pooling over the graphs
  and the output layer. The reference does all of it with host operations. The kernel program does the products
  and the combines in tiled calls and everything else with the same host operations as the reference.

  So the two agree stage by stage. At each boundary between segments of the kernel program, each buffer that a
  later segment reads holds the reference's stage of the same name of the launch arguments:
    - after a stretch of host operations, because the stretch applies the reference's operations to buffers that
      already hold the reference's stages (the operations are read off the stretch and compared);
    - after a matmul call, because the call leaves the product of its operand arrays (Matmul0/2/4) and the
      reference's dot_general is that product (RefLayers);
    - after a combine call, because the call leaves the combine of its operand arrays (Combine1/3/5) and the
      reference's stretched sum is that combine of the reshaped vectors (RefLayers);
  and a buffer written early is unchanged at every later boundary (Persist).
-/
import proofs.«149272_j55353538511629_1_alg».proof.Proof.Gen.KernelIdeal.Frame
import proofs.«149272_j55353538511629_1_alg».proof.Proof.Gen.ReferenceIdeal.Read
import proofs.«149272_j55353538511629_1_alg».proof.Proof.Persist
import proofs.«149272_j55353538511629_1_alg».proof.Proof.Matmul0
import proofs.«149272_j55353538511629_1_alg».proof.Proof.Matmul2
import proofs.«149272_j55353538511629_1_alg».proof.Proof.Matmul4
import proofs.«149272_j55353538511629_1_alg».proof.Proof.Combine1
import proofs.«149272_j55353538511629_1_alg».proof.Proof.Combine3
import proofs.«149272_j55353538511629_1_alg».proof.Proof.Combine5
import proofs.«149272_j55353538511629_1_alg».proof.Proof.RefLayers
import Idealize.ShloMosaic.Lib.StableHlo.Run

noncomputable section

namespace Cert.Stages

open Cert.KernelIdeal Cert.KernelIdeal.Gen Cert.KernelIdeal.Persist
open Cert.ReferenceIdeal.Read
open Idealize.ShloMosaic Idealize.ShloMosaic.TcCoe Idealize.SL.Sem
open Cert.KernelIdeal.MatmulSpec Cert.KernelIdeal.CombineSpec

variable (m : (ℓ : Loc nD τ sig) → Buf (Elt Ideal) ℓ) (ρ : Dev nD → PrngReg) (c : Dev nD)

/-! ## The launch arguments of core `c` -/

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)
abbrev A9 := m ((c : Thread nD τ).loc main_arg9)
abbrev A10 := m ((c : Thread nD τ).loc main_arg10)

/-! ## A buffer no later segment writes is, at every later boundary, what it was after the first stretch -/

/-- An argument still holds its launch contents after the first stretch. -/
theorem arg_at_1 (r : Ref sig .tc) (h : r ∉ host0_W := by decide) :
    W1 m ρ c (Proc.devRef .tc r) = m ((c : Thread nD τ).loc r) :=
  (W1_of m ρ c r h).trans rfl

theorem to1_2 (r : Ref sig .tc) (h2 : r ∉ ([main_v28] : List (Ref sig .tc)) := by decide) :
    W2 m ρ c (Proc.devRef .tc r) = W1 m ρ c (Proc.devRef .tc r) := W2_of m ρ c r h2
theorem to1_3 (r : Ref sig .tc) (h2 : r ∉ ([main_v28] : List (Ref sig .tc)) := by decide) (h3 : r ∉ host1_W := by decide) :
    W3 m ρ c (Proc.devRef .tc r) = W1 m ρ c (Proc.devRef .tc r) := (W3_of m ρ c r h3).trans (to1_2 m ρ c r h2)
theorem to1_4 (r : Ref sig .tc) (h2 : r ∉ ([main_v28] : List (Ref sig .tc)) := by decide) (h3 : r ∉ host1_W := by decide)
    (h4 : r ∉ ([main_v43] : List (Ref sig .tc)) := by decide) :
    W4 m ρ c (Proc.devRef .tc r) = W1 m ρ c (Proc.devRef .tc r) := (W4_of m ρ c r h4).trans (to1_3 m ρ c r h2 h3)
theorem to1_5 (r : Ref sig .tc) (h2 : r ∉ ([main_v28] : List (Ref sig .tc)) := by decide) (h3 : r ∉ host1_W := by decide)
    (h4 : r ∉ ([main_v43] : List (Ref sig .tc)) := by decide) (h5 : r ∉ ([main_v44] : List (Ref sig .tc)) := by decide) :
    W5 m ρ c (Proc.devRef .tc r) = W1 m ρ c (Proc.devRef .tc r) := (W5_of m ρ c r h5).trans (to1_4 m ρ c r h2 h3 h4)
theorem to1_6 (r : Ref sig .tc) (h2 : r ∉ ([main_v28] : List (Ref sig .tc)) := by decide) (h3 : r ∉ host1_W := by decide)
    (h4 : r ∉ ([main_v43] : List (Ref sig .tc)) := by decide) (h5 : r ∉ ([main_v44] : List (Ref sig .tc)) := by decide)
    (h6 : r ∉ host3_W := by decide) :
    W6 m ρ c (Proc.devRef .tc r) = W1 m ρ c (Proc.devRef .tc r) := (W6_of m ρ c r h6).trans (to1_5 m ρ c r h2 h3 h4 h5)
theorem to1_7 (r : Ref sig .tc) (h2 : r ∉ ([main_v28] : List (Ref sig .tc)) := by decide) (h3 : r ∉ host1_W := by decide)
    (h4 : r ∉ ([main_v43] : List (Ref sig .tc)) := by decide) (h5 : r ∉ ([main_v44] : List (Ref sig .tc)) := by decide)
    (h6 : r ∉ host3_W := by decide) (h7 : r ∉ ([main_v59] : List (Ref sig .tc)) := by decide) :
    W7 m ρ c (Proc.devRef .tc r) = W1 m ρ c (Proc.devRef .tc r) := (W7_of m ρ c r h7).trans (to1_6 m ρ c r h2 h3 h4 h5 h6)
theorem to1_8 (r : Ref sig .tc) (h2 : r ∉ ([main_v28] : List (Ref sig .tc)) := by decide) (h3 : r ∉ host1_W := by decide)
    (h4 : r ∉ ([main_v43] : List (Ref sig .tc)) := by decide) (h5 : r ∉ ([main_v44] : List (Ref sig .tc)) := by decide)
    (h6 : r ∉ host3_W := by decide) (h7 : r ∉ ([main_v59] : List (Ref sig .tc)) := by decide)
    (h8 : r ∉ ([main_v60] : List (Ref sig .tc)) := by decide) :
    W8 m ρ c (Proc.devRef .tc r) = W1 m ρ c (Proc.devRef .tc r) := (W8_of m ρ c r h8).trans (to1_7 m ρ c r h2 h3 h4 h5 h6 h7)
theorem to1_9 (r : Ref sig .tc) (h2 : r ∉ ([main_v28] : List (Ref sig .tc)) := by decide) (h3 : r ∉ host1_W := by decide)
    (h4 : r ∉ ([main_v43] : List (Ref sig .tc)) := by decide) (h5 : r ∉ ([main_v44] : List (Ref sig .tc)) := by decide)
    (h6 : r ∉ host3_W := by decide) (h7 : r ∉ ([main_v59] : List (Ref sig .tc)) := by decide)
    (h8 : r ∉ ([main_v60] : List (Ref sig .tc)) := by decide) (h9 : r ∉ host5_W := by decide) :
    W9 m ρ c (Proc.devRef .tc r) = W1 m ρ c (Proc.devRef .tc r) := (W9_of m ρ c r h9).trans (to1_8 m ρ c r h2 h3 h4 h5 h6 h7 h8)
theorem to1_10 (r : Ref sig .tc) (h2 : r ∉ ([main_v28] : List (Ref sig .tc)) := by decide) (h3 : r ∉ host1_W := by decide)
    (h4 : r ∉ ([main_v43] : List (Ref sig .tc)) := by decide) (h5 : r ∉ ([main_v44] : List (Ref sig .tc)) := by decide)
    (h6 : r ∉ host3_W := by decide) (h7 : r ∉ ([main_v59] : List (Ref sig .tc)) := by decide)
    (h8 : r ∉ ([main_v60] : List (Ref sig .tc)) := by decide) (h9 : r ∉ host5_W := by decide)
    (h10 : r ∉ ([main_v75] : List (Ref sig .tc)) := by decide) :
    W10 m ρ c (Proc.devRef .tc r) = W1 m ρ c (Proc.devRef .tc r) := (W10_of m ρ c r h10).trans (to1_9 m ρ c r h2 h3 h4 h5 h6 h7 h8 h9)

/-! ## After the first stretch: the index rows, the edge weights, the inverse-degree column -/

/-- The source-index row. -/
theorem rows_at_1 : W1 m ρ c (Proc.devRef .tc main_v1) = val_main_v1 (F := Ideal) (A9 m c) := by
  show StableHlo.after hostOps0 (W0 m ρ c) (Proc.devRef .tc main_v1) = _
  after_results_simp <;> rfl
/-- The target-index row. -/
theorem cols_at_1 : W1 m ρ c (Proc.devRef .tc main_v3) = val_main_v3 (F := Ideal) (A9 m c) := by
  show StableHlo.after hostOps0 (W0 m ρ c) (Proc.devRef .tc main_v3) = _
  after_results_simp <;> rfl
/-- The edge weights. -/
theorem weights_at_1 : W1 m ρ c (Proc.devRef .tc main_v25) = val_main_v25 (F := Ideal) (A9 m c) := by
  show StableHlo.after hostOps0 (W0 m ρ c) (Proc.devRef .tc main_v25) = _
  after_results_simp <;> rfl
/-- The inverse degrees, reshaped to a column. -/
theorem invdeg_at_1 : W1 m ρ c (Proc.devRef .tc main_v27)
    = shapeCast S100000x1 (val_main_v26 (F := Ideal) (A9 m c)) shapeCasts_S100000_S100000x1 := by
  show StableHlo.after hostOps0 (W0 m ρ c) (Proc.devRef .tc main_v27) = _
  after_results_simp <;> rfl

/-! ## Layer 1 -/

/-- The first product. -/
theorem prod1_at_2 : W2 m ρ c (Proc.devRef .tc main_v28) = val_main_v27 (F := Ideal) (A0 m c) (A1 m c) := by
  refine ((W2_arr m ρ c 2).trans ((Cert.KernelIdeal.Matmul0.result_array (V1 m ρ) c).trans ?_)).trans
    (Cert.RefLayers.prod1 (A0 m c) (A1 m c)).symm
  show prod32 (W1 m ρ c (Proc.devRef .tc main_arg0)) (W1 m ρ c (Proc.devRef .tc main_arg1)) = prod32 (A0 m c) (A1 m c)
  rw [arg_at_1 m ρ c main_arg0, arg_at_1 m ρ c main_arg1]

/-- The first aggregation. -/
theorem msgs1_at_3 : W3 m ρ c (Proc.devRef .tc main_v41) = val_main_v40 (F := Ideal) (A0 m c) (A1 m c) (A9 m c) := by
  show StableHlo.after hostOps1 (W2 m ρ c) (Proc.devRef .tc main_v41) = _
  after_results_simp
  rw [prod1_at_2 m ρ c, (to1_2 m ρ c main_v25).trans (weights_at_1 m ρ c),
    (to1_2 m ρ c main_v1).trans (rows_at_1 m ρ c), (to1_2 m ρ c main_v3).trans (cols_at_1 m ρ c)]
  rfl
/-- The first bias, reshaped to a row. -/
theorem bias1_at_3 : W3 m ρ c (Proc.devRef .tc main_v42) = shapeCast S1x128 (A2 m c) shapeCasts_S128_S1x128 := by
  show StableHlo.after hostOps1 (W2 m ρ c) (Proc.devRef .tc main_v42) = _
  after_results_simp
  rw [(to1_2 m ρ c main_arg2).trans (arg_at_1 m ρ c main_arg2)]
  rfl

/-- The first layer's output. -/
theorem hidden1_at_4 : W4 m ρ c (Proc.devRef .tc main_v43) = val_main_v48 (F := Ideal) (A0 m c) (A1 m c) (A2 m c) (A9 m c) := by
  refine ((W4_arr m ρ c 4).trans ((Cert.KernelIdeal.Combine1.result_array (V3 m ρ) c).trans ?_)).trans
    (Cert.RefLayers.hidden1 shapeCasts_S100000_S100000x1 shapeCasts_S128_S1x128 (A0 m c) (A1 m c) (A2 m c) (A9 m c)).symm
  show combineRelu (W3 m ρ c (Proc.devRef .tc main_v41)) (W3 m ρ c (Proc.devRef .tc main_v28)) (W3 m ρ c (Proc.devRef .tc main_v27)) (W3 m ρ c (Proc.devRef .tc main_v42)) = _
  rw [msgs1_at_3 m ρ c, (W3_of m ρ c main_v28 (by decide)).trans (prod1_at_2 m ρ c),
    (to1_3 m ρ c main_v27).trans (invdeg_at_1 m ρ c), bias1_at_3 m ρ c]

/-! ## Layer 2 -/

/-- The second product. -/
theorem prod2_at_5 : W5 m ρ c (Proc.devRef .tc main_v44) = val_main_v49 (F := Ideal) (A0 m c) (A1 m c) (A2 m c) (A3 m c) (A9 m c) := by
  refine ((W5_arr m ρ c 2).trans ((Cert.KernelIdeal.Matmul2.result_array (V4 m ρ) c).trans ?_)).trans
    (Cert.RefLayers.prod2 (A0 m c) (A1 m c) (A2 m c) (A3 m c) (A9 m c)).symm
  show prod128 (W4 m ρ c (Proc.devRef .tc main_v43)) (W4 m ρ c (Proc.devRef .tc main_arg3)) = _
  rw [hidden1_at_4 m ρ c, (to1_4 m ρ c main_arg3).trans (arg_at_1 m ρ c main_arg3)]

/-- The second aggregation. -/
theorem msgs2_at_6 : W6 m ρ c (Proc.devRef .tc main_v57) = val_main_v62 (F := Ideal) (A0 m c) (A1 m c) (A2 m c) (A3 m c) (A9 m c) := by
  show StableHlo.after hostOps3 (W5 m ρ c) (Proc.devRef .tc main_v57) = _
  after_results_simp
  rw [prod2_at_5 m ρ c, (to1_5 m ρ c main_v25).trans (weights_at_1 m ρ c),
    (to1_5 m ρ c main_v1).trans (rows_at_1 m ρ c), (to1_5 m ρ c main_v3).trans (cols_at_1 m ρ c)]
  rfl
/-- The second bias, reshaped to a row. -/
theorem bias2_at_6 : W6 m ρ c (Proc.devRef .tc main_v58) = shapeCast S1x128 (A4 m c) shapeCasts_S128_S1x128 := by
  show StableHlo.after hostOps3 (W5 m ρ c) (Proc.devRef .tc main_v58) = _
  after_results_simp
  rw [(to1_5 m ρ c main_arg4).trans (arg_at_1 m ρ c main_arg4)]
  rfl

/-- The second layer's output. -/
theorem hidden2_at_7 : W7 m ρ c (Proc.devRef .tc main_v59) = val_main_v70 (F := Ideal) (A0 m c) (A1 m c) (A2 m c) (A3 m c) (A4 m c) (A9 m c) := by
  refine ((W7_arr m ρ c 4).trans ((Cert.KernelIdeal.Combine3.result_array (V6 m ρ) c).trans ?_)).trans
    (Cert.RefLayers.hidden2 shapeCasts_S100000_S100000x1 shapeCasts_S128_S1x128 (A0 m c) (A1 m c) (A2 m c) (A3 m c) (A4 m c) (A9 m c)).symm
  show combineRelu (W6 m ρ c (Proc.devRef .tc main_v57)) (W6 m ρ c (Proc.devRef .tc main_v44)) (W6 m ρ c (Proc.devRef .tc main_v27)) (W6 m ρ c (Proc.devRef .tc main_v58)) = _
  rw [msgs2_at_6 m ρ c, (W6_of m ρ c main_v44 (by decide)).trans (prod2_at_5 m ρ c),
    (to1_6 m ρ c main_v27).trans (invdeg_at_1 m ρ c), bias2_at_6 m ρ c]

/-! ## Layer 3 -/

/-- The third product. -/
theorem prod3_at_8 : W8 m ρ c (Proc.devRef .tc main_v60) = val_main_v71 (F := Ideal) (A0 m c) (A1 m c) (A2 m c) (A3 m c) (A4 m c) (A5 m c) (A9 m c) := by
  refine ((W8_arr m ρ c 2).trans ((Cert.KernelIdeal.Matmul4.result_array (V7 m ρ) c).trans ?_)).trans
    (Cert.RefLayers.prod3 (A0 m c) (A1 m c) (A2 m c) (A3 m c) (A4 m c) (A5 m c) (A9 m c)).symm
  show prod128 (W7 m ρ c (Proc.devRef .tc main_v59)) (W7 m ρ c (Proc.devRef .tc main_arg5)) = _
  rw [hidden2_at_7 m ρ c, (to1_7 m ρ c main_arg5).trans (arg_at_1 m ρ c main_arg5)]

/-- The third aggregation. -/
theorem msgs3_at_9 : W9 m ρ c (Proc.devRef .tc main_v73) = val_main_v84 (F := Ideal) (A0 m c) (A1 m c) (A2 m c) (A3 m c) (A4 m c) (A5 m c) (A9 m c) := by
  show StableHlo.after hostOps5 (W8 m ρ c) (Proc.devRef .tc main_v73) = _
  after_results_simp
  rw [prod3_at_8 m ρ c, (to1_8 m ρ c main_v25).trans (weights_at_1 m ρ c),
    (to1_8 m ρ c main_v1).trans (rows_at_1 m ρ c), (to1_8 m ρ c main_v3).trans (cols_at_1 m ρ c)]
  rfl
/-- The third bias, reshaped to a row. -/
theorem bias3_at_9 : W9 m ρ c (Proc.devRef .tc main_v74) = shapeCast S1x128 (A6 m c) shapeCasts_S128_S1x128 := by
  show StableHlo.after hostOps5 (W8 m ρ c) (Proc.devRef .tc main_v74) = _
  after_results_simp
  rw [(to1_8 m ρ c main_arg6).trans (arg_at_1 m ρ c main_arg6)]
  rfl

/-- The third layer's output. -/
theorem hidden3_at_10 : W10 m ρ c (Proc.devRef .tc main_v75) = val_main_v91 (F := Ideal) (A0 m c) (A1 m c) (A2 m c) (A3 m c) (A4 m c) (A5 m c) (A6 m c) (A9 m c) := by
  refine ((W10_arr m ρ c 4).trans ((Cert.KernelIdeal.Combine5.result_array (V9 m ρ) c).trans ?_)).trans
    (Cert.RefLayers.hidden3 shapeCasts_S100000_S100000x1 shapeCasts_S128_S1x128 (A0 m c) (A1 m c) (A2 m c) (A3 m c) (A4 m c) (A5 m c) (A6 m c) (A9 m c)).symm
  show combine (W9 m ρ c (Proc.devRef .tc main_v73)) (W9 m ρ c (Proc.devRef .tc main_v60)) (W9 m ρ c (Proc.devRef .tc main_v27)) (W9 m ρ c (Proc.devRef .tc main_v74)) = _
  rw [msgs3_at_9 m ρ c, (W9_of m ρ c main_v60 (by decide)).trans (prod3_at_8 m ρ c),
    (to1_9 m ρ c main_v27).trans (invdeg_at_1 m ρ c), bias3_at_9 m ρ c]

/-! ## The pooling and the output layer -/

/-- The program's result: the reference's last stage of the launch arguments. -/
theorem result_at_11 : W11 m ρ c (Proc.devRef .tc main_v91) = val_main_v107 (F := Ideal) (A0 m c) (A1 m c) (A2 m c) (A3 m c) (A4 m c) (A5 m c) (A6 m c) (A7 m c) (A8 m c) (A9 m c) (A10 m c) := by
  show StableHlo.after hostOps6 (W10 m ρ c) (Proc.devRef .tc main_v91) = _
  after_results_simp
  rw [hidden3_at_10 m ρ c, (to1_10 m ρ c main_arg10).trans (arg_at_1 m ρ c main_arg10),
    (to1_10 m ρ c main_arg7).trans (arg_at_1 m ρ c main_arg7), (to1_10 m ρ c main_arg8).trans (arg_at_1 m ρ c main_arg8)]
  rfl

end Cert.Stages

end
-- ==== Proof.lean ====
/-
  A three-layer graph convolution with mean pooling, computed two ways, gives the same result on the extended reals.

  Both programs take node features x (100000 by 32), three weight matrices and biases, an output layer, an edge list
  (2 by 1600000 indices) and a graph assignment of the nodes. Both compute the degrees of the nodes from the edge
  list, their inverse square roots, a weight per edge and the inverse degrees; then three times: the product of the
  current features with the layer's weights, the sum over incoming edges of the weighted product rows, and

      (aggregated + inverse degree * product) + bias,         with the maximum with zero after the first two layers;

  then the mean of the node rows over each graph and the output layer. The reference does every step with host
  operations on whole arrays. The kernel program does the three products and the three combines in tiled calls over
  blocks of 5000 rows (the products on operands narrowed to bf16, which is the identity on the extended reals) and
  all the rest with the same host operations.

  The proof follows the kernel program segment by segment. A tiled matmul call leaves, in its result array, the
  product of its two operand arrays (entry (r, q) the sum over k of x (r, k) * w (k, q)); a tiled combine call leaves
  the combine of its four operand arrays; the blocks tile the rows, so no entry is missed. The reference's whole-array
  dot_general is that product, and its stretched sum is that combine of the reshaped vectors. Everything else is the
  same operation applied to equal operands, in the same order: no sum is regrouped and no factor is moved, so no
  finiteness of the inputs is used. Hence at every boundary of the kernel program each live buffer holds the
  reference's stage of the same arguments, and the results agree.

  The three frame claims: the two kernel programs' are the generated frames; the reference's is its generated run
  with the result forgotten. The idealization changed no operation, so the preservation claim is trivial.
-/
import proofs.«149272_j55353538511629_1_alg».proof.Defs
import proofs.«149272_j55353538511629_1_alg».proof.Proof.Gen.Kernel
import proofs.«149272_j55353538511629_1_alg».proof.Proof.Gen.Kernel.Skeleton
import proofs.«149272_j55353538511629_1_alg».proof.Proof.Gen.Kernel.Launch
import proofs.«149272_j55353538511629_1_alg».proof.Proof.Gen.Kernel.Points
import proofs.«149272_j55353538511629_1_alg».proof.Proof.Gen.Kernel.Frame
import proofs.«149272_j55353538511629_1_alg».proof.Proof.Gen.KernelIdeal
import proofs.«149272_j55353538511629_1_alg».proof.Proof.Gen.KernelIdeal.Skeleton
import proofs.«149272_j55353538511629_1_alg».proof.Proof.Gen.KernelIdeal.Launch
import proofs.«149272_j55353538511629_1_alg».proof.Proof.Gen.KernelIdeal.Points
import proofs.«149272_j55353538511629_1_alg».proof.Proof.Gen.KernelIdeal.Frame
import proofs.«149272_j55353538511629_1_alg».proof.Proof.Gen.ReferenceIdeal
import proofs.«149272_j55353538511629_1_alg».proof.Proof.Gen.ReferenceIdeal.Run
import proofs.«149272_j55353538511629_1_alg».proof.Proof.Gen.ReferenceIdeal.Read
import proofs.«149272_j55353538511629_1_alg».proof.Proof.Gen.Pre_finite_inputs
import proofs.«149272_j55353538511629_1_alg».proof.Proof.WholeRun
import proofs.«149272_j55353538511629_1_alg».proof.Proof.Stages
import Idealize.ShloMosaic.Adequacy
import Idealize.ShloMosaic.Init

noncomputable section

namespace Cert.Proof

open Idealize.ShloMosaic Idealize.ShloMosaic.TcCoe Idealize.SL.Sem

/-- The kernel program runs and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the reference's last stage of
    the arguments. The kernel program's run names every buffer at the last boundary's contents, and that boundary's
    result buffer holds the stage; the reference's run ends at its composed term, which is the stage. -/
theorem algebraic : Cert.algebraic_KernelIdeal_ReferenceIdeal := by
  intro m ρ m' ρ' _ hagree
  refine ⟨fun c => Cert.ReferenceIdeal.Read.val_main_v107 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Stages.result_at_11 m ρ c), (h c).2⟩)
      (Cert.KernelIdeal.Whole.run_result m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9, e10⟩ := hagree c
    rw [(h c).1, Cert.ReferenceIdeal.Read.val_main_v107_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
